-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x3200000 : Shape := ⟨2, ![2, 3200000]⟩
abbrev S64x2 : Shape := ⟨2, ![64, 2]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S64x2 : S_.BroadcastsInDim S64x2 (![] : Fin 0 → Fin S64x2.rank)
  reducesTo_S64x2_S_d0_1 : S64x2.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x2 .f32) (main_arg1 : IVec S2x3200000 32) (main_arg2 : FVec F S64x2 .f32) (main_arg3 : FVec F S64 .f32) (main_arg4 : FVec F S2x64 .f32) (main_arg5 : FVec F S2 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S64x2 .f32 := Host.absf main_arg2
  let main_cst_0 : FVec F S_ .f32 := constant S_ .f32 0x7F800000#32
  let main_v5 : FVec F S64x2 .f32 := broadcastInDim S64x2 ![] bcast_S_S64x2 main_cst_0
  let main_v6 : IVec S64x2 1 := cmpf .olt main_v4 main_v5
  let main_c_1 : IVec S_ 1 := constantI S_ 1 1#1
  let main_v7 : IVec S_ 1 := (fun x v => Host.reduce IntOp.andi x v reducesTo_S64x2_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x64 .f32 := Host.absf main_arg4
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg5 main_v13 main_v16
-- ==== Kernel.lean ====
abbrev S100000x2 : Shape := ⟨2, ![100000, 2]⟩
abbrev S2x3200000 : Shape := ⟨2, ![2, 3200000]⟩
abbrev S64x2 : Shape := ⟨2, ![64, 2]⟩
abbrev S64 : Shape := ⟨1, ![64]⟩
abbrev S2x64 : Shape := ⟨2, ![2, 64]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x2 : Shape := ⟨2, ![3300000, 2]⟩
abbrev S100000x64 : Shape := ⟨2, ![100000, 64]⟩
abbrev S2000x2 : Shape := ⟨2, ![2000, 2]⟩
abbrev S2000x64 : Shape := ⟨2, ![2000, 64]⟩
abbrev S1x64 : Shape := ⟨2, ![1, 64]⟩
abbrev S1x2 : Shape := ⟨2, ![1, 2]⟩

abbrev nBuf : Space → Nat
  | .hbm => 83
  | .vmem => 17
  | .smem => 0
  | _ => 0

abbrev bufTy : (tb : Table) → Fin (tcTables nBuf tb) → BufTy
  | .hbm, ⟨0, _⟩ => ⟨S100000x2, .f32⟩
  | .hbm, ⟨1, _⟩ => ⟨S2x3200000, .i32⟩
  | .hbm, ⟨2, _⟩ => ⟨S64x2, .f32⟩
  | .hbm, ⟨3, _⟩ => ⟨S64, .f32⟩
  | .hbm, ⟨4, _⟩ => ⟨S2x64, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x2, .f32⟩
  | .hbm, ⟨55, _⟩ => ⟨S3300000x1, .f32⟩
  | .hbm, ⟨56, _⟩ => ⟨S3300000x2, .f32⟩
  | .hbm, ⟨57, _⟩ => ⟨S3300000x2, .f32⟩
  | .hbm, ⟨58, _⟩ => ⟨S_, .f32⟩
  | .hbm, ⟨59, _⟩ => ⟨S100000x2, .f32⟩
  | .hbm, ⟨60, _⟩ => ⟨S3300000x1, .i32⟩
  | .hbm, ⟨61, _⟩ => ⟨S100000x2, .f32⟩
  | .hbm, ⟨62, _⟩ => ⟨S100000x64, .f32⟩
  | .hbm, ⟨63, _⟩ => ⟨S_, .f32⟩
  | .hbm, ⟨64, _⟩ => ⟨S2, .f32⟩
  | .hbm, ⟨65, _⟩ => ⟨S100000x2, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x2, .f32⟩
  | .hbm, ⟨75, _⟩ => ⟨S3300000x1, .f32⟩
  | .hbm, ⟨76, _⟩ => ⟨S3300000x2, .f32⟩
  | .hbm, ⟨77, _⟩ => ⟨S3300000x2, .f32⟩
  | .hbm, ⟨78, _⟩ => ⟨S_, .f32⟩
  | .hbm, ⟨79, _⟩ => ⟨S100000x2, .f32⟩
  | .hbm, ⟨80, _⟩ => ⟨S3300000x1, .i32⟩
  | .hbm, ⟨81, _⟩ => ⟨S100000x2, .f32⟩
  | .hbm, ⟨82, _⟩ => ⟨S100000x2, .f32⟩
  | .local _ .vmem, ⟨0, _⟩ => ⟨S2000x2, .f32⟩
  | .local _ .vmem, ⟨1, _⟩ => ⟨S2000x2, .f32⟩
  | .local _ .vmem, ⟨2, _⟩ => ⟨S64x2, .f32⟩
  | .local _ .vmem, ⟨3, _⟩ => ⟨S64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2x64, .f32⟩
  | .local _ .vmem, ⟨9, _⟩ => ⟨S2, .f32⟩
  | .local _ .vmem, ⟨10, _⟩ => ⟨S2000x2, .f32⟩
  | .local _ .vmem, ⟨11, _⟩ => ⟨S2000x2, .f32⟩
  | .local _ .vmem, ⟨12, _⟩ => ⟨S2000x2, .f32⟩
  | .local _ .vmem, ⟨13, _⟩ => ⟨S2000x2, .f32⟩
  | .local _ .vmem, ⟨14, _⟩ => ⟨S2, .f32⟩
  | .local _ .vmem, ⟨15, _⟩ => ⟨S2000x2, .f32⟩
  | .local _ .vmem, ⟨16, _⟩ => ⟨S2000x2, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  bitsLt_bf16_f32 : FTy.bits .bf16 < FTy.bits .f32
  inb_S64x2_S64x2_0_0 : ∀ a, (![0, 0] : Fin 2 → Nat) a + S64x2.size a ≤ S64x2.size a
  h_S64x2 : 0 < S64x2.numel
  transposes_S64x2_p1_0_S2x64 : S64x2.Transposes [1, 0] S2x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S2 : S_.BroadcastsInDim S2 (![] : Fin 0 → Fin S2.rank)
  shapeCasts_S2000x64_S2000x64 : S2000x64.ShapeCasts S2000x64
  inb_S2x64_S2x64_0_0 : ∀ a, (![0, 0] : Fin 2 → Nat) a + S2x64.size a ≤ S2x64.size a
  h_S2x64 : 0 < S2x64.numel
  transposes_S2x64_p1_0_S64x2 : S2x64.Transposes [1, 0] S64x2
  inb_S2_S2_0 : ∀ a, (![0] : Fin 1 → Nat) a + S2.size a ≤ S2.size a
  h_S2 : 0 < S2.numel
  shapeCasts_S2_S2 : S2.ShapeCasts S2
  shapeCasts_S2_S1x2 : S2.ShapeCasts S1x2
  broadcasts_S1x2_S2000x2 : S1x2.Broadcasts S2000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  dot_S2000x2_S2x64_S2000x64_1_0_0_1_n_n_wf : DotDims.WF S2000x2 S2x64 S2000x64 [1] [0] [0] [1] [] []
  dot_S2000x64_S64x2_S2000x2_1_0_0_1_n_n_wf : DotDims.WF S2000x64 S64x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2.size a ≤ S100000x2.size a
  hwx0_0 : ∀ i : grid0.Coords, EltTy.bits .f32 = 32 ∨ (Rect.block (s := S100000x2) S2000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2.size a ≤ S64x2.size a
  hwx0_1 : ∀ i : grid0.Coords, EltTy.bits .f32 = 32 ∨ (Rect.block (s := S64x2) S64x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x64.size a ≤ S2x64.size a
  hwx1_1 : ∀ i : grid1.Coords, EltTy.bits .f32 = 32 ∨ (Rect.block (s := S2x64) S2x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2.size a ≤ S2.size a
  hwx1_2 : ∀ i : grid1.Coords, EltTy.bits .f32 = 32 ∨ (Rect.block (s := S2) S2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x2.size a ≤ S100000x2.size a
  hwx1_3 : ∀ i : grid1.Coords, EltTy.bits .f32 = 32 ∨ (Rect.block (s := S100000x2) S2000x2.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x2.size a ≤ S100000x2.size a
  hwx2_0 : ∀ i : grid2.Coords, EltTy.bits .f32 = 32 ∨ (Rect.block (s := S100000x2) S2000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2.size a ≤ S2.size a
  hwx2_1 : ∀ i : grid2.Coords, EltTy.bits .f32 = 32 ∨ (Rect.block (s := S2) S2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x2.size a ≤ S100000x2.size a
  hwx2_2 : ∀ i : grid2.Coords, EltTy.bits .f32 = 32 ∨ (Rect.block (s := S100000x2) S2000x2.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf
def dot_S2000x2_S2x64_S2000x64_1_0_0_1_n_n : DotDims S2000x2 S2x64 S2000x64 where
  lhsContracting := [1]
  rhsContracting := [0]
  lhsNonContracting := [0]
  rhsNonContracting := [1]
  lhsBatch := []
  rhsBatch := []
  wf := dot_S2000x2_S2x64_S2000x64_1_0_0_1_n_n_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf

abbrev win0_0 : Pipeline.Window sig grid0 :=
  Pipeline.Window.ofSpec (Memref.whole main_v42) S2000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S2000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S2000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x2 : Shape := ⟨2, ![100000, 2]⟩
abbrev S2x3200000 : Shape := ⟨2, ![2, 3200000]⟩
abbrev S64x2 : Shape := ⟨2, ![64, 2]⟩
abbrev S64 : Shape := ⟨1, ![64]⟩
abbrev S2x64 : Shape := ⟨2, ![2, 64]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S3300000x2 : Shape := ⟨2, ![3300000, 2]⟩
abbrev S1x2 : Shape := ⟨2, ![1, 2]⟩

abbrev nBuf : Space → Nat
  | .hbm => 127
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x3200000, .i32⟩
  | .hbm, ⟨2, _⟩ => ⟨S64x2, .f32⟩
  | .hbm, ⟨3, _⟩ => ⟨S64, .f32⟩
  | .hbm, ⟨4, _⟩ => ⟨S2x64, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S2x64, .f32⟩
  | .hbm, ⟨47, _⟩ => ⟨S100000x64, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x64, .f32⟩
  | .hbm, ⟨57, _⟩ => ⟨S3300000x1, .f32⟩
  | .hbm, ⟨58, _⟩ => ⟨S3300000x64, .f32⟩
  | .hbm, ⟨59, _⟩ => ⟨S3300000x64, .f32⟩
  | .hbm, ⟨60, _⟩ => ⟨S_, .f32⟩
  | .hbm, ⟨61, _⟩ => ⟨S100000x64, .f32⟩
  | .hbm, ⟨62, _⟩ => ⟨S3300000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S100000, .i32⟩
  | .hbm, ⟨71, _⟩ => ⟨S3300000, .i32⟩
  | .hbm, ⟨72, _⟩ => ⟨S3300000, .i32⟩
  | .hbm, ⟨73, _⟩ => ⟨S_, .f32⟩
  | .hbm, ⟨74, _⟩ => ⟨S3300000, .f32⟩
  | .hbm, ⟨75, _⟩ => ⟨S_, .f32⟩
  | .hbm, ⟨76, _⟩ => ⟨S100000, .f32⟩
  | .hbm, ⟨77, _⟩ => ⟨S3300000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000, .f32⟩
  | .hbm, ⟨96, _⟩ => ⟨S_, .i32⟩
  | .hbm, ⟨97, _⟩ => ⟨S3300000, .i32⟩
  | .hbm, ⟨98, _⟩ => ⟨S3300000, .i1⟩
  | .hbm, ⟨99, _⟩ => ⟨S_, .i32⟩
  | .hbm, ⟨100, _⟩ => ⟨S3300000, .i32⟩
  | .hbm, ⟨101, _⟩ => ⟨S3300000, .i32⟩
  | .hbm, ⟨102, _⟩ => ⟨S3300000, .i32⟩
  | .hbm, ⟨103, _⟩ => ⟨S3300000x1, .i32⟩
  | .hbm, ⟨104, _⟩ => ⟨S3300000, .f32⟩
  | .hbm, ⟨105, _⟩ => ⟨S3300000, .f32⟩
  | .hbm, ⟨106, _⟩ => ⟨S64x2, .f32⟩
  | .hbm, ⟨107, _⟩ => ⟨S100000x2, .f32⟩
  | .hbm, ⟨108, _⟩ => ⟨S_, .i32⟩
  | .hbm, ⟨109, _⟩ => ⟨S3300000, .i32⟩
  | .hbm, ⟨110, _⟩ => ⟨S3300000, .i1⟩
  | .hbm, ⟨111, _⟩ => ⟨S_, .i32⟩
  | .hbm, ⟨112, _⟩ => ⟨S3300000, .i32⟩
  | .hbm, ⟨113, _⟩ => ⟨S3300000, .i32⟩
  | .hbm, ⟨114, _⟩ => ⟨S3300000, .i32⟩
  | .hbm, ⟨115, _⟩ => ⟨S3300000x1, .i32⟩
  | .hbm, ⟨116, _⟩ => ⟨S3300000x2, .f32⟩
  | .hbm, ⟨117, _⟩ => ⟨S3300000x1, .f32⟩
  | .hbm, ⟨118, _⟩ => ⟨S3300000x2, .f32⟩
  | .hbm, ⟨119, _⟩ => ⟨S3300000x2, .f32⟩
  | .hbm, ⟨120, _⟩ => ⟨S_, .f32⟩
  | .hbm, ⟨121, _⟩ => ⟨S100000x2, .f32⟩
  | .hbm, ⟨122, _⟩ => ⟨S3300000x1, .i32⟩
  | .hbm, ⟨123, _⟩ => ⟨S100000x2, .f32⟩
  | .hbm, ⟨124, _⟩ => ⟨S1x2, .f32⟩
  | .hbm, ⟨125, _⟩ => ⟨S100000x2, .f32⟩
  | .hbm, ⟨126, _⟩ => ⟨S100000x2, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_17 : Ref sig .tc := ⟨.hbm, 108, rfl⟩
abbrev main_v77 : Ref sig .tc := ⟨.hbm, 109, rfl⟩
abbrev main_v78 : Ref sig .tc := ⟨.hbm, 110, rfl⟩
abbrev main_c_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  transposes_S64x2_S2x64_1_0 : S64x2.Transposes [1, 0] S2x64
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S2x64_S64x2_1_0 : S2x64.Transposes [1, 0] S64x2
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x2_S2x64_S100000x64_1_0_0_1_n_n_wf : DotDims.WF S100000x2 S2x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x2_S100000x2_1_0_0_1_n_n_wf : DotDims.WF S100000x64 S64x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x2_S2x64_S100000x64_1_0_0_1_n_n : DotDims S100000x2 S2x64 S100000x64 where
  lhsContracting := [1]
  rhsContracting := [0]
  lhsNonContracting := [0]
  rhsNonContracting := [1]
  lhsBatch := []
  rhsBatch := []
  wf := dot_S100000x2_S2x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.KPayload.lean ====
/-
  What each of the three kernel bodies stores, read at an entry, on the extended reals.

  A block of `2000` rows is processed at a time. With `x` the block of the row operand, `W` the weight matrix and
  `b` the bias vector, as loaded:
  * the first body stores `max (Σ_k x(p,k) · W(j,k) + b(j), 0)` at `(p, j)`: the rows times the transposed weights
    (the matrix unit accumulates into zero; the change of float format before it is the identity here), plus the bias
    repeated along the rows, then the rectifier;
  * the second stores `Σ_k x(p,k) · W(j,k) + b(j)` (the same without the rectifier);
  * the third stores `x(p,j) + b(j)`.
-/
import proofs.«131247_j46445776339255_2_alg».proof.Proof.Gen.KernelIdeal.Skeleton
import proofs.«131247_j46445776339255_2_alg».proof.Proof.LibHostRead
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx Cert.LibHostRead

/-- The first body's product is a plain one: rows `2000 × 2` times `2 × 64`. -/
theorem plain0 : PlainDot dot_S2000x2_S2x64_S2000x64_1_0_0_1_n_n where
  hr := rfl
  hs := rfl
  hl0 := fun i q => by
    unfold DotDims.lhsIdx
    rw [dif_neg (show ¬(0 : Fin S2000x2.rank) ∈ dot_S2000x2_S2x64_S2000x64_1_0_0_1_n_n.lhsBatch by decide),
      dif_pos (show (0 : Fin S2000x2.rank) ∈ dot_S2000x2_S2x64_S2000x64_1_0_0_1_n_n.lhsNonContracting by decide)]
    rfl
  hl1 := fun i q => dot_S2000x2_S2x64_S2000x64_1_0_0_1_n_n.lhsIdx_val_of_single rfl i q
  hr0 := fun i q => dot_S2000x2_S2x64_S2000x64_1_0_0_1_n_n.rhsIdx_val_of_single rfl i q
  hr1 := fun i q => by
    unfold DotDims.rhsIdx
    rw [dif_neg (show ¬(1 : Fin S2x64.rank) ∈ dot_S2000x2_S2x64_S2000x64_1_0_0_1_n_n.rhsBatch by decide),
      dif_pos (show (1 : Fin S2x64.rank) ∈ dot_S2000x2_S2x64_S2000x64_1_0_0_1_n_n.rhsNonContracting by decide)]
    rfl

/-- The second body's product is a plain one: rows `2000 × 64` times `64 × 2`. -/
theorem plain1 : PlainDot dot_S2000x64_S64x2_S2000x2_1_0_0_1_n_n where
  hr := rfl
  hs := rfl
  hl0 := fun i q => by
    unfold DotDims.lhsIdx
    rw [dif_neg (show ¬(0 : Fin S2000x64.rank) ∈ dot_S2000x64_S64x2_S2000x2_1_0_0_1_n_n.lhsBatch by decide),
      dif_pos (show (0 : Fin S2000x64.rank) ∈ dot_S2000x64_S64x2_S2000x2_1_0_0_1_n_n.lhsNonContracting by decide)]
    rfl
  hl1 := fun i q => dot_S2000x64_S64x2_S2000x2_1_0_0_1_n_n.lhsIdx_val_of_single rfl i q
  hr0 := fun i q => dot_S2000x64_S64x2_S2000x2_1_0_0_1_n_n.rhsIdx_val_of_single rfl i q
  hr1 := fun i q => by
    unfold DotDims.rhsIdx
    rw [dif_neg (show ¬(1 : Fin S64x2.rank) ∈ dot_S2000x64_S64x2_S2000x2_1_0_0_1_n_n.rhsBatch by decide),
      dif_pos (show (1 : Fin S64x2.rank) ∈ dot_S2000x64_S64x2_S2000x2_1_0_0_1_n_n.rhsNonContracting by decide)]
    rfl

/-- The first body's stored value as one composition of its loads. -/
theorem pay0_eq (x0 : Vec Ideal S2000x2 .f32) (x1 : Vec Ideal S64x2 .f32) (x2 : Vec Ideal S64 .f32) :
    k0_pay1 (F := Ideal) x0 x1 x2
      = maximumf (addf (matmul dot_S2000x2_S2x64_S2000x64_1_0_0_1_n_n none
            (truncf .bf16 (shapeCast S2000x2 x0 shapeCasts_S2000x2_S2000x2) bitsLt_bf16_f32)
            (truncf .bf16 (transpose S2x64 [1, 0] x1 transposes_S64x2_p1_0_S2x64) bitsLt_bf16_f32)
            (constant S2000x64 .f32 0x00000000#32))
          (broadcastTo S2000x64 (shapeCast S1x64 x2 shapeCasts_S64_S1x64) broadcasts_S1x64_S2000x64))
        (broadcast S2000x64 (Scalar.ofBits .f32 0x00000000#32)) := rfl

/-- The first body at `(p, j)`: row `p` against row `j` of the weights, plus the bias, rectified. -/
theorem pay0_apply (x0 : Vec Ideal S2000x2 .f32) (x1 : Vec Ideal S64x2 .f32) (x2 : Vec Ideal S64 .f32)
    (p : Fin 2000) (j : Fin 64) :
    k0_pay1 (F := Ideal) x0 x1 x2 (ix2 p j)
      = max ((∑ k : Fin 2, x0 (ix2 p k) * x1 (ix2 j k)) + x2 (ix1 j)) 0 := by
  rw [pay0_eq, maximumf_apply, addf_apply, broadcast_apply]
  refine congrArg₂ max (congrArg₂ (· + ·) ?_ ?_) ?_
  · refine (matmul_plain_zero_apply dot_S2000x2_S2x64_S2000x64_1_0_0_1_n_n plain0 _ _ p j).trans ?_
    refine Finset.sum_congr rfl fun k _ => ?_
    rw [truncf_apply, truncf_apply, shapeCast_self, transpose_ix2_apply]
  · exact (broadcastTo_1b_ab_apply _ broadcasts_S1x64_S2000x64 p j).trans
      (shapeCast_a_1a_apply x2 shapeCasts_S64_S1x64 0 j)
  · exact Ideal.ofBits_zero_f32

/-- The second body's stored value as one composition of its loads. -/
theorem pay1_eq (x0 : Vec Ideal S2000x64 .f32) (x1 : Vec Ideal S2x64 .f32) (x2 : Vec Ideal S2 .f32) :
    k1_pay1 (F := Ideal) x0 x1 x2
      = addf (matmul dot_S2000x64_S64x2_S2000x2_1_0_0_1_n_n none
            (truncf .bf16 (shapeCast S2000x64 x0 shapeCasts_S2000x64_S2000x64) bitsLt_bf16_f32)
            (truncf .bf16 (transpose S64x2 [1, 0] x1 transposes_S2x64_p1_0_S64x2) bitsLt_bf16_f32)
            (constant S2000x2 .f32 0x00000000#32))
          (broadcastTo S2000x2 (shapeCast S1x2 (shapeCast S2 x2 shapeCasts_S2_S2) shapeCasts_S2_S1x2) broadcasts_S1x2_S2000x2) := rfl

/-- The second body at `(p, j)`: row `p` against row `j` of the weights, plus the bias. -/
theorem pay1_apply (x0 : Vec Ideal S2000x64 .f32) (x1 : Vec Ideal S2x64 .f32) (x2 : Vec Ideal S2 .f32)
    (p : Fin 2000) (j : Fin 2) :
    k1_pay1 (F := Ideal) x0 x1 x2 (ix2 p j)
      = (∑ k : Fin 64, x0 (ix2 p k) * x1 (ix2 j k)) + x2 (ix1 j) := by
  rw [pay1_eq, addf_apply]
  refine congrArg₂ (· + ·) ?_ ?_
  · refine (matmul_plain_zero_apply dot_S2000x64_S64x2_S2000x2_1_0_0_1_n_n plain1 _ _ p j).trans ?_
    refine Finset.sum_congr rfl fun k _ => ?_
    rw [truncf_apply, truncf_apply, shapeCast_self, transpose_ix2_apply]
  · refine (broadcastTo_1b_ab_apply _ broadcasts_S1x2_S2000x2 p j).trans ?_
    refine (shapeCast_a_1a_apply _ shapeCasts_S2_S1x2 0 j).trans ?_
    rw [shapeCast_self]

/-- The third body's stored value as one composition of its loads. -/
theorem pay2_eq (x0 : Vec Ideal S2000x2 .f32) (x1 : Vec Ideal S2 .f32) :
    k2_pay1 (F := Ideal) x0 x1
      = addf (shapeCast S2000x2 x0 shapeCasts_S2000x2_S2000x2)
          (broadcastTo S2000x2 (shapeCast S1x2 x1 shapeCasts_S2_S1x2) broadcasts_S1x2_S2000x2) := rfl

/-- The third body at `(p, j)`: the entry plus the bias of its column. -/
theorem pay2_apply (x0 : Vec Ideal S2000x2 .f32) (x1 : Vec Ideal S2 .f32) (p : Fin 2000) (j : Fin 2) :
    k2_pay1 (F := Ideal) x0 x1 (ix2 p j) = x0 (ix2 p j) + x1 (ix1 j) := by
  rw [pay2_eq, addf_apply, shapeCast_self]
  refine congrArg₂ (· + ·) rfl ?_
  exact (broadcastTo_1b_ab_apply _ broadcasts_S1x2_S2000x2 p j).trans (shapeCast_a_1a_apply x1 shapeCasts_S2_S1x2 0 j)

end Cert.KernelIdeal.Payload

end
-- ==== Proof.GcnSpec.lean ====
/-
  The pieces of a two-layer graph convolution as functions of whole arrays, on the extended reals.

  * `linBias X W b`: each row of `X` against each row of `W`, plus the bias: entry `(n, j)` is
    `Σ_k X(n,k) · W(j,k) + b(j)` — a dense layer with the weights stored output-major.
  * `lin X W`: the same without a bias.
  * `relu X`: the entrywise maximum with zero.  `addBias X b`: `X(n,j) + b(j)`.
  * `aggSum sel g ν X`: the normalized neighbourhood sum. Edge `e` reads row `g e` of `X`, scales it by `ν e`, and
    the scaled rows of the edges selected for node `n` (`sel n e`) are added up from zero:
    entry `(n, c)` is `0 + Σ_e [sel n e] X(g e, c) · ν e`.
-/
import Idealize.ShloMosaic.PureOps.Ideal
import Idealize.ShloMosaic.Lib.ValueIdx

noncomputable section
open scoped BigOperators
namespace Cert.GcnSpec

open Idealize.ShloMosaic Idealize.ShloMosaic.ValueIdx

variable {N Din Dout D M : ℕ}

/-- A dense layer with a bias: `(n, j) ↦ Σ_k X(n,k) · W(j,k) + b(j)`. -/
def linBias (X : (⟨2, ![N, Din]⟩ : Shape).Idx → EReal) (W : (⟨2, ![Dout, Din]⟩ : Shape).Idx → EReal)
    (b : (⟨1, ![Dout]⟩ : Shape).Idx → EReal) : (⟨2, ![N, Dout]⟩ : Shape).Idx → EReal :=
  fun i => (∑ k : Fin Din, X (ix2 (i 0) k) * W (ix2 (i 1) k)) + b (ix1 (i 1))

theorem linBias_apply (X : (⟨2, ![N, Din]⟩ : Shape).Idx → EReal) (W : (⟨2, ![Dout, Din]⟩ : Shape).Idx → EReal)
    (b : (⟨1, ![Dout]⟩ : Shape).Idx → EReal) (n : Fin N) (j : Fin Dout) :
    linBias X W b (ix2 n j) = (∑ k : Fin Din, X (ix2 n k) * W (ix2 j k)) + b (ix1 j) := rfl

/-- A dense layer without a bias: `(n, j) ↦ Σ_k X(n,k) · W(j,k)`. -/
def lin (X : (⟨2, ![N, Din]⟩ : Shape).Idx → EReal) (W : (⟨2, ![Dout, Din]⟩ : Shape).Idx → EReal) :
    (⟨2, ![N, Dout]⟩ : Shape).Idx → EReal :=
  fun i => ∑ k : Fin Din, X (ix2 (i 0) k) * W (ix2 (i 1) k)

theorem lin_apply (X : (⟨2, ![N, Din]⟩ : Shape).Idx → EReal) (W : (⟨2, ![Dout, Din]⟩ : Shape).Idx → EReal)
    (n : Fin N) (j : Fin Dout) : lin X W (ix2 n j) = ∑ k : Fin Din, X (ix2 n k) * W (ix2 j k) := rfl

/-- The rectifier, entrywise. -/
def relu (X : (⟨2, ![N, D]⟩ : Shape).Idx → EReal) : (⟨2, ![N, D]⟩ : Shape).Idx → EReal := fun i => max (X i) 0

theorem relu_apply (X : (⟨2, ![N, D]⟩ : Shape).Idx → EReal) (i : (⟨2, ![N, D]⟩ : Shape).Idx) : relu X i = max (X i) 0 := rfl

/-- A bias added to every row. -/
def addBias (X : (⟨2, ![N, D]⟩ : Shape).Idx → EReal) (b : (⟨1, ![D]⟩ : Shape).Idx → EReal) :
    (⟨2, ![N, D]⟩ : Shape).Idx → EReal := fun i => X i + b (ix1 (i 1))

theorem addBias_apply (X : (⟨2, ![N, D]⟩ : Shape).Idx → EReal) (b : (⟨1, ![D]⟩ : Shape).Idx → EReal) (n : Fin N) (j : Fin D) :
    addBias X b (ix2 n j) = X (ix2 n j) + b (ix1 j) := rfl

/-- The normalized neighbourhood sum: `(n, c) ↦ 0 + Σ_e [sel n e] X(g e, c) · ν e`. -/
def aggSum (sel : Fin N → Fin M → Prop) [∀ n e, Decidable (sel n e)] (g : Fin M → Fin N) (ν : Fin M → EReal)
    (X : (⟨2, ![N, D]⟩ : Shape).Idx → EReal) : (⟨2, ![N, D]⟩ : Shape).Idx → EReal :=
  fun i => 0 + ∑ e : Fin M, if sel ⟨(i 0).val, (i 0).isLt⟩ e then X (ix2 (g e) (i 1)) * ν e else 0

theorem aggSum_apply (sel : Fin N → Fin M → Prop) [∀ n e, Decidable (sel n e)] (g : Fin M → Fin N) (ν : Fin M → EReal)
    (X : (⟨2, ![N, D]⟩ : Shape).Idx → EReal) (n : Fin N) (c : Fin D) :
    aggSum sel g ν X (ix2 n c) = 0 + ∑ e : Fin M, if sel n e then X (ix2 (g e) c) * ν e else 0 := rfl

/-- A dense layer with a zero bias is the layer without one. -/
theorem linBias_zero (X : (⟨2, ![N, Din]⟩ : Shape).Idx → EReal) (W : (⟨2, ![Dout, Din]⟩ : Shape).Idx → EReal)
    (b : (⟨1, ![Dout]⟩ : Shape).Idx → EReal) (hb : ∀ j, b j = 0) : linBias X W b = lin X W := by
  funext i
  show (∑ k : Fin Din, X (ix2 (i 0) k) * W (ix2 (i 1) k)) + b (ix1 (i 1)) = _
  rw [hb, add_zero]
  rfl

end Cert.GcnSpec
end
-- ==== Proof.KRegion0.lean ====
/-
  The first region: a dense layer with bias and rectifier, block by block.

  The grid has fifty points; point `t` loads rows `2000·t … 2000·t + 1999` of the aggregated features (width 2), the whole
  `64 × 2` weight matrix and the whole bias, and writes back the same rows of the result (width 64). The fifty blocks
  tile the `100000` rows, so after the region the result array is `relu (linBias A W b)` of the arrays the region found.
-/
import proofs.«131247_j46445776339255_2_alg».proof.Proof.Gen.KernelIdeal.Frame
import proofs.«131247_j46445776339255_2_alg».proof.Proof.KPayload
import proofs.«131247_j46445776339255_2_alg».proof.Proof.GcnSpec
import Idealize.ShloMosaic.Lib.Pipeline.Value

set_option maxRecDepth 16384

noncomputable section

namespace Cert.KernelIdeal.Region0

open Cert.KernelIdeal Cert.KernelIdeal.Gen Cert.KernelIdeal.Payload Cert.GcnSpec
open Idealize.ShloMosaic Idealize.ShloMosaic.TcCoe Idealize.SL.Sem Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid of fifty points: the row operand's and the result's block index is the point; the
    small operands' is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- Block `t` of the row operand is rows `2000·t … 2000·t + 1999` of its array. -/
theorem blkA (c : Dev nD) (t : Fin cfg0.N) (p : Fin 2000) (q : Fin 2) (hp : t.val * 2000 + p.val < 100000) :
    iblk0 V c 0 t (ix2 p q) = V c main_v42 (ix2 (⟨t.val * 2000 + p.val, hp⟩ : Fin 100000) q) := by
  obtain ⟨e0, e1, -⟩ := idx_facts t
  show V c main_v42 (((cfg0.win 0).blk t).view.emb (ix2 p q)) = _
  refine congrArg (V c main_v42) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 2 + 1 * q.val = q.val; rw [e1]; omega

/-- The weights' one block is the whole matrix. -/
theorem blkW (c : Dev nD) (t : Fin cfg0.N) (j : Fin 64) (q : Fin 2) :
    iblk0 V c 1 t (ix2 j q) = V c main_arg2 (ix2 j q) := by
  obtain ⟨-, -, e2, e3, -⟩ := idx_facts t
  show V c main_arg2 (((cfg0.win 1).blk t).view.emb (ix2 j q)) = _
  refine congrArg (V c main_arg2) (funext fun a => Fin.ext ?_)
  match a with
  | ⟨0, _⟩ => show win0_1.index t (0 : Fin 2) * 64 + 1 * j.val = j.val; rw [e2]; omega
  | ⟨1, _⟩ => show win0_1.index t (1 : Fin 2) * 2 + 1 * q.val = q.val; rw [e3]; omega

/-- The bias' one block is the whole vector. -/
theorem blkB (c : Dev nD) (t : Fin cfg0.N) (j : Fin 64) :
    iblk0 V c 2 t (ix1 j) = V c main_arg3 (ix1 j) := by
  obtain ⟨-, -, -, -, e4, -⟩ := idx_facts t
  show V c main_arg3 (((cfg0.win 2).blk t).view.emb (ix1 j)) = _
  refine congrArg (V c main_arg3) (funext fun a => Fin.ext ?_)
  match a with
  | ⟨0, _⟩ => show win0_2.index t (0 : Fin 1) * 64 + 1 * j.val = j.val; rw [e4]; omega

/-- What point `t` writes back is block `t` of the layer's result as a function of the arrays the region finds. -/
theorem flushed_eq (c : Dev nD) (t : Fin cfg0.N) :
    (dat0 V c).flushed 3 t = ((cfg0.win 3).blk t).view.read (Elt Ideal) (relu (linBias (N := 100000) (Din := 2) (Dout := 64) (V c main_v42) (V c main_arg2) (V c main_arg3))) := by
  have hN : cfg0.N = 50 := N_0
  obtain ⟨e0, e1, e2, e3, e4, e5, e6⟩ := idx_facts t
  show (cfg0.win 3).cut (grid0.coords t) ((dat0 V c).after 3 t) = _
  rw [after0_3]
  unfold out0_3
  rw [View.canon_unit_zero hz2]
  simp only [View.ld_unit_zero (S := S2000x2) hz2, View.ld_unit_zero (S := S64x2) hz2, View.ld_unit_zero (S := S64) hz1]
  funext y
  obtain ⟨p, j, rfl⟩ : ∃ (p : Fin 2000) (j : Fin 64), y = ix2 p j := ⟨y 0, y 1, eq_ix2 y⟩
  have ht : t.val < 50 := by have := t.isLt; omega
  have hp : t.val * 2000 + p.val < 100000 := by have := p.isLt; omega
  show k0_pay1 (iblk0 V c 0 t) (iblk0 V c 1 t) (iblk0 V c 2 t) (ix2 p j)
      = (relu (linBias (N := 100000) (Din := 2) (Dout := 64) (V c main_v42) (V c main_arg2) (V c main_arg3))) (((cfg0.win 3).blk t).view.emb (ix2 p j))
  have hemb : ((cfg0.win 3).blk t).view.emb (ix2 p j) = ix2 (⟨t.val * 2000 + p.val, hp⟩ : Fin 100000) j := by
    funext a; apply Fin.ext
    match a with
    | ⟨0, _⟩ => show win0_3.index t (0 : Fin 2) * 2000 + 1 * p.val = t.val * 2000 + p.val; rw [e5]; omega
    | ⟨1, _⟩ => show win0_3.index t (1 : Fin 2) * 64 + 1 * j.val = j.val; rw [e6]; omega
  rw [hemb, relu_apply, linBias_apply, pay0_apply]
  refine congrArg₂ max (congrArg₂ (· + ·) (Finset.sum_congr rfl fun q _ => congrArg₂ (· * ·) ?_ ?_) ?_) rfl
  · exact blkA V c t p q hp
  · exact blkW V c t j q
  · exact blkB V c t j

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v43).slice (win0_3.rect t)).set ↔ _
  rw [View.set_slice_whole, Rect.mem_set_unit]
  exact Iff.rfl

/-- The fifty blocks of `2000` rows cover the `100000` rows: row `r` is in block `r / 2000`. -/
theorem cover (i : S100000x64.Idx) :
    ∃ t : Fin cfg0.N, (cfg0.win 3).flush t = true ∧ i ∈ ((cfg0.win 3).blk t).view.set := by
  have hN : cfg0.N = 50 := N_0
  have hi0 : (i 0).val < 100000 := (i 0).isLt
  have hi1 : (i 1).val < 64 := (i 1).isLt
  have hlt : (i 0).val / 2000 < cfg0.N := by omega
  refine ⟨⟨(i 0).val / 2000, hlt⟩, flush0_3 _, ?_⟩
  obtain ⟨e0, e1, e2, e3, e4, e5, e6⟩ := idx_facts ⟨(i 0).val / 2000, hlt⟩
  rw [mem_blk]
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    rw [e5]; show (i 0).val / 2000 * 2000 ≤ (i 0).val ∧ (i 0).val < (i 0).val / 2000 * 2000 + 2000; omega
  | ⟨1, _⟩ =>
    show win0_3.index ⟨(i 0).val / 2000, hlt⟩ (1 : Fin 2) * 64 ≤ (i 1).val
      ∧ (i 1).val < win0_3.index ⟨(i 0).val / 2000, hlt⟩ (1 : Fin 2) * 64 + 64
    rw [e6]; omega

/-- After the region its result array holds the layer's result of the arrays the region found. -/
theorem final (c : Dev nD) : (dat0 V c).arrAt 3 cfg0.N = relu (linBias (N := 100000) (Din := 2) (Dout := 64) (V c main_v42) (V c main_arg2) (V c main_arg3)) :=
  (dat0 V c).arrAt_eq_of_cover 3 _ (fun t _ => flushed_eq V c t) cover

end Cert.KernelIdeal.Region0

end
-- ==== Proof.KRegion1.lean ====
/-
  The second region: a dense layer with a bias, block by block.

  Point `t` of fifty loads rows `2000·t … 2000·t + 1999` of the hidden features (width 64), the whole `2 × 64` weight
  matrix and the whole bias vector (which the program fills with zeros), and writes back the same rows of the result
  (width 2). After the region the result array is `linBias A W b` of the arrays the region found.
-/
import proofs.«131247_j46445776339255_2_alg».proof.Proof.Gen.KernelIdeal.Frame
import proofs.«131247_j46445776339255_2_alg».proof.Proof.KPayload
import proofs.«131247_j46445776339255_2_alg».proof.Proof.GcnSpec
import Idealize.ShloMosaic.Lib.Pipeline.Value

set_option maxRecDepth 16384

noncomputable section

namespace Cert.KernelIdeal.Region1

open Cert.KernelIdeal Cert.KernelIdeal.Gen Cert.KernelIdeal.Payload Cert.GcnSpec
open Idealize.ShloMosaic Idealize.ShloMosaic.TcCoe Idealize.SL.Sem Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid of fifty points: the row operand's and the result's block index is the point; the
    small operands' is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- Block `t` of the row operand is rows `2000·t … 2000·t + 1999` of its array. -/
theorem blkA (c : Dev nD) (t : Fin cfg1.N) (p : Fin 2000) (q : Fin 64) (hp : t.val * 2000 + p.val < 100000) :
    iblk1 V c 0 t (ix2 p q) = V c main_v43 (ix2 (⟨t.val * 2000 + p.val, hp⟩ : Fin 100000) q) := by
  obtain ⟨e0, e1, -⟩ := idx_facts t
  show V c main_v43 (((cfg1.win 0).blk t).view.emb (ix2 p q)) = _
  refine congrArg (V c main_v43) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 64 + 1 * q.val = q.val; rw [e1]; omega

/-- The weights' one block is the whole matrix. -/
theorem blkW (c : Dev nD) (t : Fin cfg1.N) (j : Fin 2) (q : Fin 64) :
    iblk1 V c 1 t (ix2 j q) = V c main_arg4 (ix2 j q) := by
  obtain ⟨-, -, e2, e3, -⟩ := idx_facts t
  show V c main_arg4 (((cfg1.win 1).blk t).view.emb (ix2 j q)) = _
  refine congrArg (V c main_arg4) (funext fun a => Fin.ext ?_)
  match a with
  | ⟨0, _⟩ => show win1_1.index t (0 : Fin 2) * 2 + 1 * j.val = j.val; rw [e2]; omega
  | ⟨1, _⟩ => show win1_1.index t (1 : Fin 2) * 64 + 1 * q.val = q.val; rw [e3]; omega

/-- The bias' one block is the whole vector. -/
theorem blkB (c : Dev nD) (t : Fin cfg1.N) (j : Fin 2) :
    iblk1 V c 2 t (ix1 j) = V c main_v44 (ix1 j) := by
  obtain ⟨-, -, -, -, e4, -⟩ := idx_facts t
  show V c main_v44 (((cfg1.win 2).blk t).view.emb (ix1 j)) = _
  refine congrArg (V c main_v44) (funext fun a => Fin.ext ?_)
  match a with
  | ⟨0, _⟩ => show win1_2.index t (0 : Fin 1) * 2 + 1 * j.val = j.val; rw [e4]; omega

/-- What point `t` writes back is block `t` of the layer's result as a function of the arrays the region finds. -/
theorem flushed_eq (c : Dev nD) (t : Fin cfg1.N) :
    (dat1 V c).flushed 3 t = ((cfg1.win 3).blk t).view.read (Elt Ideal) (linBias (N := 100000) (Din := 64) (Dout := 2) (V c main_v43) (V c main_arg4) (V c main_v44)) := by
  have hN : cfg1.N = 50 := N_1
  obtain ⟨e0, e1, e2, e3, e4, e5, e6⟩ := idx_facts t
  show (cfg1.win 3).cut (grid1.coords t) ((dat1 V c).after 3 t) = _
  rw [after1_3]
  unfold out1_3
  rw [View.canon_unit_zero hz2]
  simp only [View.ld_unit_zero (S := S2000x64) hz2, View.ld_unit_zero (S := S2x64) hz2, View.ld_unit_zero (S := S2) hz1]
  funext y
  obtain ⟨p, j, rfl⟩ : ∃ (p : Fin 2000) (j : Fin 2), y = ix2 p j := ⟨y 0, y 1, eq_ix2 y⟩
  have ht : t.val < 50 := by have := t.isLt; omega
  have hp : t.val * 2000 + p.val < 100000 := by have := p.isLt; omega
  show k1_pay1 (iblk1 V c 0 t) (iblk1 V c 1 t) (iblk1 V c 2 t) (ix2 p j)
      = (linBias (N := 100000) (Din := 64) (Dout := 2) (V c main_v43) (V c main_arg4) (V c main_v44)) (((cfg1.win 3).blk t).view.emb (ix2 p j))
  have hemb : ((cfg1.win 3).blk t).view.emb (ix2 p j) = ix2 (⟨t.val * 2000 + p.val, hp⟩ : Fin 100000) j := by
    funext a; apply Fin.ext
    match a with
    | ⟨0, _⟩ => show win1_3.index t (0 : Fin 2) * 2000 + 1 * p.val = t.val * 2000 + p.val; rw [e5]; omega
    | ⟨1, _⟩ => show win1_3.index t (1 : Fin 2) * 2 + 1 * j.val = j.val; rw [e6]; omega
  rw [hemb, linBias_apply, pay1_apply]
  refine congrArg₂ (· + ·) (Finset.sum_congr rfl fun q _ => congrArg₂ (· * ·) ?_ ?_) ?_
  · exact blkA V c t p q hp
  · exact blkW V c t j q
  · exact blkB V c t j

/-- An index of the result array is in point `t`'s block iff each coordinate is in the block's range on its axis. -/
theorem mem_blk (t : Fin cfg1.N) (i : S100000x2.Idx) :
    i ∈ ((cfg1.win 3).blk t).view.set ↔ ∀ a : Fin 2, win1_3.index t a * S2000x2.size a ≤ (i a).val
      ∧ (i a).val < win1_3.index t a * S2000x2.size a + S2000x2.size a := by
  show i ∈ ((View.whole main_v45).slice (win1_3.rect t)).set ↔ _
  rw [View.set_slice_whole, Rect.mem_set_unit]
  exact Iff.rfl

/-- The fifty blocks of `2000` rows cover the `100000` rows: row `r` is in block `r / 2000`. -/
theorem cover (i : S100000x2.Idx) :
    ∃ t : Fin cfg1.N, (cfg1.win 3).flush t = true ∧ i ∈ ((cfg1.win 3).blk t).view.set := by
  have hN : cfg1.N = 50 := N_1
  have hi0 : (i 0).val < 100000 := (i 0).isLt
  have hi1 : (i 1).val < 2 := (i 1).isLt
  have hlt : (i 0).val / 2000 < cfg1.N := by omega
  refine ⟨⟨(i 0).val / 2000, hlt⟩, flush1_3 _, ?_⟩
  obtain ⟨e0, e1, e2, e3, e4, e5, e6⟩ := idx_facts ⟨(i 0).val / 2000, hlt⟩
  rw [mem_blk]
  intro a
  match a with
  | ⟨0, _⟩ =>
    show win1_3.index ⟨(i 0).val / 2000, hlt⟩ (0 : Fin 2) * 2000 ≤ (i 0).val
      ∧ (i 0).val < win1_3.index ⟨(i 0).val / 2000, hlt⟩ (0 : Fin 2) * 2000 + 2000
    rw [e5]; show (i 0).val / 2000 * 2000 ≤ (i 0).val ∧ (i 0).val < (i 0).val / 2000 * 2000 + 2000; omega
  | ⟨1, _⟩ =>
    show win1_3.index ⟨(i 0).val / 2000, hlt⟩ (1 : Fin 2) * 2 ≤ (i 1).val
      ∧ (i 1).val < win1_3.index ⟨(i 0).val / 2000, hlt⟩ (1 : Fin 2) * 2 + 2
    rw [e6]; omega

/-- After the region its result array holds the layer's result of the arrays the region found. -/
theorem final (c : Dev nD) : (dat1 V c).arrAt 3 cfg1.N = linBias (N := 100000) (Din := 64) (Dout := 2) (V c main_v43) (V c main_arg4) (V c main_v44) :=
  (dat1 V c).arrAt_eq_of_cover 3 _ (fun t _ => flushed_eq V c t) cover

end Cert.KernelIdeal.Region1

end
-- ==== Proof.KRegion2.lean ====
/-
  The third region: the output bias added to every row, block by block.

  Point `t` of fifty loads rows `2000·t … 2000·t + 1999` of the aggregated second-layer features (width 2) and the whole
  bias, and writes back the same rows plus the bias. After the region the result array is `addBias A b`.
-/
import proofs.«131247_j46445776339255_2_alg».proof.Proof.Gen.KernelIdeal.Frame
import proofs.«131247_j46445776339255_2_alg».proof.Proof.KPayload
import proofs.«131247_j46445776339255_2_alg».proof.Proof.GcnSpec
import Idealize.ShloMosaic.Lib.Pipeline.Value

set_option maxRecDepth 16384

noncomputable section

namespace Cert.KernelIdeal.Region2

open Cert.KernelIdeal Cert.KernelIdeal.Gen Cert.KernelIdeal.Payload Cert.GcnSpec
open Idealize.ShloMosaic Idealize.ShloMosaic.TcCoe Idealize.SL.Sem Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid of fifty points: the row operand's and the result's block index is the point; the
    small operands' is zero. -/
theorem idx_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- Block `t` of the row operand is rows `2000·t … 2000·t + 1999` of its array. -/
theorem blkA (c : Dev nD) (t : Fin cfg2.N) (p : Fin 2000) (q : Fin 2) (hp : t.val * 2000 + p.val < 100000) :
    iblk2 V c 0 t (ix2 p q) = V c main_v58 (ix2 (⟨t.val * 2000 + p.val, hp⟩ : Fin 100000) q) := by
  obtain ⟨e0, e1, -⟩ := idx_facts t
  show V c main_v58 (((cfg2.win 0).blk t).view.emb (ix2 p q)) = _
  refine congrArg (V c main_v58) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 2 + 1 * q.val = q.val; rw [e1]; omega

/-- The bias' one block is the whole vector. -/
theorem blkB (c : Dev nD) (t : Fin cfg2.N) (j : Fin 2) :
    iblk2 V c 1 t (ix1 j) = V c main_arg5 (ix1 j) := by
  obtain ⟨-, -, e2, -⟩ := idx_facts t
  show V c main_arg5 (((cfg2.win 1).blk t).view.emb (ix1 j)) = _
  refine congrArg (V c main_arg5) (funext fun a => Fin.ext ?_)
  match a with
  | ⟨0, _⟩ => show win2_1.index t (0 : Fin 1) * 2 + 1 * j.val = j.val; rw [e2]; omega

/-- What point `t` writes back is block `t` of the layer's result as a function of the arrays the region finds. -/
theorem flushed_eq (c : Dev nD) (t : Fin cfg2.N) :
    (dat2 V c).flushed 2 t = ((cfg2.win 2).blk t).view.read (Elt Ideal) (addBias (N := 100000) (D := 2) (V c main_v58) (V c main_arg5)) := by
  have hN : cfg2.N = 50 := N_2
  obtain ⟨e0, e1, e2, e3, e4⟩ := idx_facts t
  show (cfg2.win 2).cut (grid2.coords t) ((dat2 V c).after 2 t) = _
  rw [after2_2]
  unfold out2_2
  rw [View.canon_unit_zero hz2]
  simp only [View.ld_unit_zero (S := S2000x2) hz2, View.ld_unit_zero (S := S2) hz1]
  funext y
  obtain ⟨p, j, rfl⟩ : ∃ (p : Fin 2000) (j : Fin 2), y = ix2 p j := ⟨y 0, y 1, eq_ix2 y⟩
  have ht : t.val < 50 := by have := t.isLt; omega
  have hp : t.val * 2000 + p.val < 100000 := by have := p.isLt; omega
  show k2_pay1 (iblk2 V c 0 t) (iblk2 V c 1 t) (ix2 p j)
      = (addBias (N := 100000) (D := 2) (V c main_v58) (V c main_arg5)) (((cfg2.win 2).blk t).view.emb (ix2 p j))
  have hemb : ((cfg2.win 2).blk t).view.emb (ix2 p j) = ix2 (⟨t.val * 2000 + p.val, hp⟩ : Fin 100000) j := by
    funext a; apply Fin.ext
    match a with
    | ⟨0, _⟩ => show win2_2.index t (0 : Fin 2) * 2000 + 1 * p.val = t.val * 2000 + p.val; rw [e3]; omega
    | ⟨1, _⟩ => show win2_2.index t (1 : Fin 2) * 2 + 1 * j.val = j.val; rw [e4]; omega
  rw [hemb, addBias_apply, pay2_apply]
  refine congrArg₂ (· + ·) ?_ ?_
  · exact blkA V c t p j hp
  · exact blkB V c t j

/-- An index of the result array is in point `t`'s block iff each coordinate is in the block's range on its axis. -/
theorem mem_blk (t : Fin cfg2.N) (i : S100000x2.Idx) :
    i ∈ ((cfg2.win 2).blk t).view.set ↔ ∀ a : Fin 2, win2_2.index t a * S2000x2.size a ≤ (i a).val
      ∧ (i a).val < win2_2.index t a * S2000x2.size a + S2000x2.size a := by
  show i ∈ ((View.whole main_v59).slice (win2_2.rect t)).set ↔ _
  rw [View.set_slice_whole, Rect.mem_set_unit]
  exact Iff.rfl

/-- The fifty blocks of `2000` rows cover the `100000` rows: row `r` is in block `r / 2000`. -/
theorem cover (i : S100000x2.Idx) :
    ∃ t : Fin cfg2.N, (cfg2.win 2).flush t = true ∧ i ∈ ((cfg2.win 2).blk t).view.set := by
  have hN : cfg2.N = 50 := N_2
  have hi0 : (i 0).val < 100000 := (i 0).isLt
  have hi1 : (i 1).val < 2 := (i 1).isLt
  have hlt : (i 0).val / 2000 < cfg2.N := by omega
  refine ⟨⟨(i 0).val / 2000, hlt⟩, flush2_2 _, ?_⟩
  obtain ⟨e0, e1, e2, e3, e4⟩ := idx_facts ⟨(i 0).val / 2000, hlt⟩
  rw [mem_blk]
  intro a
  match a with
  | ⟨0, _⟩ =>
    show win2_2.index ⟨(i 0).val / 2000, hlt⟩ (0 : Fin 2) * 2000 ≤ (i 0).val
      ∧ (i 0).val < win2_2.index ⟨(i 0).val / 2000, hlt⟩ (0 : Fin 2) * 2000 + 2000
    rw [e3]; show (i 0).val / 2000 * 2000 ≤ (i 0).val ∧ (i 0).val < (i 0).val / 2000 * 2000 + 2000; omega
  | ⟨1, _⟩ =>
    show win2_2.index ⟨(i 0).val / 2000, hlt⟩ (1 : Fin 2) * 2 ≤ (i 1).val
      ∧ (i 1).val < win2_2.index ⟨(i 0).val / 2000, hlt⟩ (1 : Fin 2) * 2 + 2
    rw [e4]; omega

/-- After the region its result array holds the layer's result of the arrays the region found. -/
theorem final (c : Dev nD) : (dat2 V c).arrAt 2 cfg2.N = addBias (N := 100000) (D := 2) (V c main_v58) (V c main_arg5) :=
  (dat2 V c).arrAt_eq_of_cover 2 _ (fun t _ => flushed_eq V c t) cover

end Cert.KernelIdeal.Region2

end
-- ==== Proof.LibNodeScatter.lean ====
/-
  Rows of a node-by-feature array gathered, and accumulated, along the node axis, read at an index.

  The operand is an array over (node, feature) of extents `N, D`; the indices are a column of `M` words, each
  naming a node; the other array is over (index, feature) of extents `M, D`.
  * An ACCUMULATING SCATTER adds update row `e` to operand row `idx[e]` (the word read signed; a row outside
    `[0, N)` is dropped). On the extended reals entry `(n, d)` of the result is the operand's entry plus the sum,
    over the rows `e` with `idx[e] = n`, of update entry `(e, d)` (`hostScatterAdd_nodes_apply`), because update
    entry `(e, d)` lands exactly at `(idx[e], d)` (`resultIdx?_nodes`).
  * A GATHER reads operand row `idx[e]`, the word read signed and clamped into `[0, N − 1]`, into result row `e`
    (`gather_nodes_apply`).
  Neither statement depends on the feature extent `D`: the same rows are selected whatever the width of a row.
-/
import Idealize.ShloMosaic.PureOps.Ideal
import Idealize.ShloMosaic.Lib.ValueIdx

noncomputable section
open scoped BigOperators
namespace Cert.LibNodes

open Idealize.ShloMosaic Idealize.ShloMosaic.ValueIdx

/-- The dimension numbers of a scatter of whole rows into a node-by-feature array: update axis 1 is the window
    axis, operand axis 0 is the inserted one and the one the index names. -/
abbrev nodeScatterDims (N D M : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

variable {N D M w : Nat} (wf : ScatterDims.WF ⟨2, ![N, D]⟩ ⟨2, ![M, 1]⟩ ⟨2, ![M, D]⟩ [1] [0] [0] 1)

/-- On the node axis an update's start is its row's index word, read signed. -/
theorem start0 (j : (⟨2, ![M, D]⟩ : Shape).Idx) (idx : IVec ⟨2, ![M, 1]⟩ w) :
    (nodeScatterDims N D M wf).start j idx 0 = (idx (ix2 (j 0) (0 : Fin 1))).toInt := by
  unfold ScatterDims.start
  rw [dif_pos (show (0 : Fin 2) ∈ (nodeScatterDims N D M wf).scatterDimsToOperandDims from List.mem_singleton.mpr rfl)]
  congr 2
  funext b; refine Fin.ext ?_
  match b with
  | ⟨0, _⟩ => rfl
  | ⟨1, _⟩ => rfl

/-- Update entry `(e, d)` lands at `(n, d')` exactly when the feature agrees and row `e`'s index word, read
    signed, is `n`. -/
theorem resultIdx?_nodes (e : Fin M) (d : Fin D) (idx : IVec ⟨2, ![M, 1]⟩ w) (n : Fin N) (d' : Fin D) :
    (nodeScatterDims N D M wf).resultIdx? (ix2 e d) idx = some (ix2 n d') ↔
      d' = d ∧ (idx (ix2 e (0 : Fin 1))).toInt = (n.val : ℤ) := by
  have hs : (nodeScatterDims N D M wf).start (ix2 e d) idx 0 = (idx (ix2 e (0 : Fin 1))).toInt := start0 wf _ idx
  unfold ScatterDims.resultIdx?
  split
  · next h =>
    rw [Option.some.injEq]
    constructor
    · intro hf
      have h0 := congrArg (fun f => (f 0).val) hf
      have h1 := congrArg (fun f => (f 1).val) hf
      have g0 := (h 0).1
      simp only at h0 h1
      refine ⟨Fin.ext ?_, ?_⟩
      · have : ((0 : ℤ) + ((d.val : ℕ) : ℤ)).toNat = d'.val := h1
        omega
      · have e1 : ((nodeScatterDims N D M wf).start (ix2 e d) idx 0 + ((0 : ℕ) : ℤ)).toNat = n.val := h0
        have e2 : 0 ≤ (nodeScatterDims N D M wf).start (ix2 e d) idx 0 + ((0 : ℕ) : ℤ) := g0
        rw [hs] at e1 e2
        omega
    · rintro ⟨rfl, hx⟩
      funext a
      refine Fin.ext ?_
      match a with
      | ⟨0, _⟩ =>
        show ((nodeScatterDims N D M wf).start (ix2 e d') idx 0 + ((0 : ℕ) : ℤ)).toNat = n.val
        rw [hs, hx]; omega
      | ⟨1, _⟩ => show ((0 : ℤ) + ((d'.val : ℕ) : ℤ)).toNat = d'.val; omega
  · next h =>
    constructor
    · intro hf; exact absurd hf (by simp)
    · rintro ⟨rfl, hx⟩
      exfalso; apply h
      intro a
      match a with
      | ⟨0, _⟩ =>
        show 0 ≤ (nodeScatterDims N D M wf).start (ix2 e d') idx 0 + ((0 : ℕ) : ℤ)
          ∧ (nodeScatterDims N D M wf).start (ix2 e d') idx 0 + ((0 : ℕ) : ℤ) < ((N : ℕ) : ℤ)
        rw [hs, hx]; have := n.isLt; omega
      | ⟨1, _⟩ =>
        show 0 ≤ (0 : ℤ) + ((d'.val : ℕ) : ℤ) ∧ (0 : ℤ) + ((d'.val : ℕ) : ℤ) < ((D : ℕ) : ℤ)
        have := d'.isLt; omega

/-- The accumulating row scatter read at `(n, d)`: the operand's entry plus the update entries `(e, d)` of the
    rows `e` whose index word names node `n`. -/
theorem hostScatterAdd_nodes_apply (x : (⟨2, ![N, D]⟩ : Shape).Idx → EReal) (idx : IVec ⟨2, ![M, 1]⟩ w)
    (upd : (⟨2, ![M, D]⟩ : Shape).Idx → EReal) (n : Fin N) (d : Fin D) :
    Ideal.hostScatterAdd (nodeScatterDims N D M wf) x idx upd (ix2 n d)
      = x (ix2 n d) + ∑ e : Fin M, if (idx (ix2 e (0 : Fin 1))).toInt = (n.val : ℤ) then upd (ix2 e d) else 0 := by
  unfold Ideal.hostScatterAdd
  refine congrArg (x (ix2 n d) + ·) ?_
  rw [← Finset.sum_filter]
  refine Finset.sum_nbij' (fun j => (j 0 : Fin M)) (fun e => ix2 e d) ?_ ?_ ?_ ?_ ?_
  · intro j hj
    have hj' := (Finset.mem_filter.mp hj).2
    rw [eq_ix2 j] at hj'
    exact Finset.mem_filter.mpr ⟨Finset.mem_univ _, ((resultIdx?_nodes wf _ _ idx n d).mp hj').2⟩
  · intro e he
    have he' := (Finset.mem_filter.mp he).2
    exact Finset.mem_filter.mpr ⟨Finset.mem_univ _, (resultIdx?_nodes wf e d idx n d).mpr ⟨rfl, he'⟩⟩
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact hjj.symm
  · intro e _; rfl
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact congrArg upd hjj

/-- The dimension numbers of a gather of whole rows of a node-by-feature array: a column of `M` start indices
    naming nodes, the result over (index, feature). -/
abbrev nodeGatherDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- The node a start-index word names: read signed and clamped into `[0, N − 1]`. -/
def nodeOf (N : Nat) (hN : 0 < N) {w : Nat} (x : BitVec w) : Fin N := ⟨min x.toInt.toNat (N - 1), by omega⟩

/-- The row gather read at `(e, d)`: the operand at the row `idx[e]` names. -/
theorem gather_nodes_apply {α : Type} (hN : 0 < N)
    (wfg : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (d : Fin D) :
    Host.gather (nodeGatherDims N D M wfg) x idx (ix2 e d)
      = x (ix2 (nodeOf N hN (idx (ix2 e (0 : Fin 1)))) d) := by
  unfold Host.gather
  refine congrArg x (funext fun a => Fin.ext ?_)
  have hst : (nodeGatherDims N D M wfg).start (ix2 e d) idx 0 = min (idx (ix2 e (0 : Fin 1))).toInt.toNat (N - 1) := by
    unfold GatherDims.start
    rw [dif_pos (show (0 : Fin 2) ∈ (nodeGatherDims N D M wfg).startIndexMap from List.mem_singleton.mpr rfl)]
    have hsi : (nodeGatherDims N D M wfg).siIdx (ix2 e d) ⟨List.idxOf (0 : Fin 2) (nodeGatherDims N D M wfg).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  match a with
  | ⟨0, _⟩ =>
    show (nodeGatherDims N D M wfg).start (ix2 e d) idx 0 + (nodeGatherDims N D M wfg).batchCoord (ix2 e d) 0
      + (nodeGatherDims N D M wfg).offCoord (ix2 e d) 0 = min (idx (ix2 e (0 : Fin 1))).toInt.toNat (N - 1)
    have h2 : (nodeGatherDims N D M wfg).batchCoord (ix2 e d) 0 = 0 := rfl
    have h3 : (nodeGatherDims N D M wfg).offCoord (ix2 e d) 0 = 0 := rfl
    rw [hst, h2, h3]; rfl
  | ⟨1, _⟩ =>
    show (nodeGatherDims N D M wfg).start (ix2 e d) idx 1 + (nodeGatherDims N D M wfg).batchCoord (ix2 e d) 1
      + (nodeGatherDims N D M wfg).offCoord (ix2 e d) 1 = d.val
    have h1 : (nodeGatherDims N D M wfg).start (ix2 e d) idx 1 = 0 := rfl
    have h2 : (nodeGatherDims N D M wfg).batchCoord (ix2 e d) 1 = 0 := rfl
    have h3 : (nodeGatherDims N D M wfg).offCoord (ix2 e d) 1 = d.val := rfl
    rw [h1, h2, h3]; omega

end Cert.LibNodes
end
-- ==== Proof.GcnAgg.lean ====
/-
  The host's spelling of the normalized neighbourhood sum is `aggSum`.

  The program computes the aggregation of a node-by-feature array `X` as: gather the rows of `X` named by the
  (already wrapped) source words, one per edge; multiply each gathered row by its edge's normalizer, which is first
  made a column and then repeated along the features; add the products, row by row, into an array of zeros at the
  nodes the destination words name. Read at `(n, c)` that is `0 + Σ_e [d e = n] X(s e, c) · ν e`: the scatter's
  sum over the rows whose destination word is `n`, the gathered entry, and the two broadcasts read back to edge `e`.
  Nothing here depends on the feature width `D`.
-/
import proofs.«131247_j46445776339255_2_alg».proof.Proof.LibNodeScatter
import proofs.«131247_j46445776339255_2_alg».proof.Proof.LibHostRead
import proofs.«131247_j46445776339255_2_alg».proof.Proof.GcnSpec
import Idealize.ShloMosaic.PureOps.Ideal.Laws

noncomputable section
open scoped BigOperators
namespace Cert.GcnSpec

open Idealize.ShloMosaic Idealize.ShloMosaic.ValueIdx Cert.LibNodes Cert.LibHostRead

variable {N D M : ℕ}

/-- Edge `e` is selected for node `n`: its destination word, read signed, is `n`. -/
def selOf (d : (⟨1, ![M]⟩ : Shape).Idx → BitVec 32) (n : Fin N) (e : Fin M) : Prop := (d (ix1 e)).toInt = (n.val : ℤ)

instance (d : (⟨1, ![M]⟩ : Shape).Idx → BitVec 32) (n : Fin N) (e : Fin M) : Decidable (selOf d n e) :=
  inferInstanceAs (Decidable ((d (ix1 e)).toInt = (n.val : ℤ)))

/-- The node edge `e`'s source word names: read signed and clamped into the node range. -/
def srcOf (hN : 0 < N) (s : (⟨1, ![M]⟩ : Shape).Idx → BitVec 32) (e : Fin M) : Fin N := nodeOf N hN (s (ix1 e))

/-- Edge `e`'s normalizer. -/
def nuOf (ν : (⟨1, ![M]⟩ : Shape).Idx → EReal) (e : Fin M) : EReal := ν (ix1 e)

/-- The host's aggregation, as spelt, is `aggSum`. -/
theorem hostAgg_eq (hN : 0 < N)
    (wfs : ScatterDims.WF ⟨2, ![N, D]⟩ ⟨2, ![M, 1]⟩ ⟨2, ![M, D]⟩ [1] [0] [0] 1)
    (wfg : GatherDims.WF ⟨2, ![N, D]⟩ ⟨2, ![M, 1]⟩ ⟨2, ![M, D]⟩ [1] [0] [] [0] [] 1 ![1, D])
    (h0 : (⟨0, ![]⟩ : Shape).BroadcastsInDim ⟨2, ![N, D]⟩ ![])
    (h1 : (⟨1, ![M]⟩ : Shape).BroadcastsInDim ⟨2, ![M, 1]⟩ ![0])
    (h2 : (⟨2, ![M, 1]⟩ : Shape).BroadcastsInDim ⟨2, ![M, D]⟩ ![0, 1])
    (d s : (⟨1, ![M]⟩ : Shape).Idx → BitVec 32) (ν : (⟨1, ![M]⟩ : Shape).Idx → EReal)
    (X : (⟨2, ![N, D]⟩ : Shape).Idx → EReal) :
    Ideal.hostScatterAdd (nodeScatterDims N D M wfs)
        (broadcastInDim ⟨2, ![N, D]⟩ ![] h0 (constant (F := Ideal) ⟨0, ![]⟩ .f32 0x00000000#32))
        (broadcastInDim ⟨2, ![M, 1]⟩ ![0] h1 d)
        (mulf (F := Ideal) (φ := .f32)
          (Host.gather (nodeGatherDims N D M wfg) X (broadcastInDim ⟨2, ![M, 1]⟩ ![0] h1 s))
          (broadcastInDim ⟨2, ![M, D]⟩ ![0, 1] h2 (broadcastInDim ⟨2, ![M, 1]⟩ ![0] h1 ν)))
      = aggSum (selOf d) (srcOf hN s) (nuOf ν) X := by
  funext i
  obtain ⟨n, c, rfl⟩ : ∃ (n : Fin N) (c : Fin D), i = ix2 n c := ⟨i 0, i 1, eq_ix2 i⟩
  rw [hostScatterAdd_nodes_apply, aggSum_apply]
  refine congrArg₂ (· + ·) ?_ (Finset.sum_congr rfl fun e _ => ?_)
  · rw [bid_scalar_apply]
    exact Ideal.ofBits_zero_f32
  · have hd : broadcastInDim ⟨2, ![M, 1]⟩ ![0] h1 d (ix2 e (0 : Fin 1)) = d (ix1 e) := bid_a_a1_apply d h1 e 0
    have hs : broadcastInDim ⟨2, ![M, 1]⟩ ![0] h1 s (ix2 e (0 : Fin 1)) = s (ix1 e) := bid_a_a1_apply s h1 e 0
    have hν : broadcastInDim ⟨2, ![M, D]⟩ ![0, 1] h2 (broadcastInDim ⟨2, ![M, 1]⟩ ![0] h1 ν) (ix2 e c) = ν (ix1 e) :=
      (bid_a1_ab_apply _ h2 e c).trans (bid_a_a1_apply ν h1 e 0)
    rw [hd]
    by_cases hsel : (d (ix1 e)).toInt = (n.val : ℤ)
    · rw [if_pos hsel, if_pos (show selOf d n e from hsel), mulf_apply, gather_nodes_apply hN wfg, hs, hν]
      rfl
    · rw [if_neg hsel, if_neg (show ¬ selOf d n e from hsel)]

end Cert.GcnSpec
end
-- ==== Proof.KHost.lean ====
/-
  The idealized kernel's result array as one function of its arguments.

  Between the three regions the program runs on the host: the degree normalizers `ν`, the destination words `d` and the
  source words `s` (computed once, before the first region), the first aggregation of the input features, a bias of
  zeros for the second region, and the second aggregation (of the second region's result, with the same `d`, `s`, `ν`).
  Reading the buffers' contents back from the last boundary to the launch:
      result = addBias (agg (linBias (relu (linBias (agg x) W1 b1)) W2 0)) b2,
  with `agg` the host's aggregation (`hostAgg d s ν`), which is `aggSum` (the neighbourhood sum with wrapped source
  words).
-/
import proofs.«131247_j46445776339255_2_alg».proof.Proof.Gen.KernelIdeal.Frame
import proofs.«131247_j46445776339255_2_alg».proof.Proof.KRegion0
import proofs.«131247_j46445776339255_2_alg».proof.Proof.KRegion1
import proofs.«131247_j46445776339255_2_alg».proof.Proof.KRegion2
import proofs.«131247_j46445776339255_2_alg».proof.Proof.GcnAgg
import Idealize.ShloMosaic.Lib.StableHlo.Run

set_option maxRecDepth 16384

noncomputable section

namespace Cert.KernelIdeal.Host

open Cert.KernelIdeal Cert.KernelIdeal.Gen Cert.GcnSpec
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- A source word wrapped: a negative word has the node count added. -/
def wrapIdx (s : IVec S3300000 32) : IVec S3300000 32 :=
  select (cmpi .slt s (broadcastInDim S3300000 ![] bcast_S_S3300000 (constantI S_ 32 0#32)))
    (addi s (broadcastInDim S3300000 ![] bcast_S_S3300000 (constantI S_ 32 100000#32))) s

/-- The aggregation as the host operations spell it: gather the rows the wrapped source words name, scale each by
    its edge's normalizer, and add them into zeros at the rows the destination words name. -/
def hostAgg (d s : IVec S3300000 32) (ν : FVec Ideal S3300000 .f32) (X : FVec Ideal S100000x2 .f32) : FVec Ideal S100000x2 .f32 :=
  Host.scatterAdd (F := Ideal) scatter_S100000x2_S3300000x1_S3300000x2_1_0_0_1
      (broadcastInDim S100000x2 ![] bcast_S_S100000x2 (constant (F := Ideal) S_ .f32 0x00000000#32))
      (broadcastInDim S3300000x1 ![0] bcast_S3300000_S3300000x1_0 d)
      (mulf (F := Ideal) (Host.gather gather_S100000x2_S3300000x1_S3300000x2_1_0_n_n_0_1_12 X
          (broadcastInDim S3300000x1 ![0] bcast_S3300000_S3300000x1_0
            (select (cmpi .slt s (broadcastInDim S3300000 ![] bcast_S_S3300000 (constantI S_ 32 0#32)))
              (addi s (broadcastInDim S3300000 ![] bcast_S_S3300000 (constantI S_ 32 100000#32))) s)))
        (broadcastInDim S3300000x2 ![0, 1] bcast_S3300000x1_S3300000x2_0_1
          (broadcastInDim S3300000x1 ![0] bcast_S3300000_S3300000x1_0 ν)))

/-- The host's aggregation is the neighbourhood sum over the edges whose destination word names the node. -/
theorem hostAgg_spec (d s : IVec S3300000 32) (ν : FVec Ideal S3300000 .f32) (X : FVec Ideal S100000x2 .f32) :
    hostAgg d s ν X
      = aggSum (N := 100000) (D := 2) (M := 3300000) (selOf d) (srcOf (by decide) (wrapIdx s)) (nuOf ν) X := by
  unfold hostAgg
  exact hostAgg_eq (N := 100000) (D := 2) (M := 3300000) (by decide +kernel)
    scatter_S100000x2_S3300000x1_S3300000x2_1_0_0_1.wf gather_S100000x2_S3300000x1_S3300000x2_1_0_n_n_0_1_12.wf
    bcast_S_S100000x2 bcast_S3300000_S3300000x1_0 bcast_S3300000x1_S3300000x2_0_1 d (wrapIdx s) ν X

/-- The bias of zeros the program hands the second region. -/
def zero2 : FVec Ideal S2 .f32 := broadcastInDim S2 ![] bcast_S_S2 (constant (F := Ideal) S_ .f32 0x00000000#32)

/-! ## The host stretches, read -/

/-- The second aggregation: of the second region's result, from the words and normalizers kept since the first stretch. -/
theorem v58_eq (c : Dev nD) :
    W7 m ρ c (Proc.devRef .tc main_v58) = hostAgg (W6 m ρ c (Proc.devRef .tc main_v6)) (W6 m ρ c (Proc.devRef .tc main_v5))
      (W6 m ρ c (Proc.devRef .tc main_v29)) (W6 m ρ c (Proc.devRef .tc main_v45)) := by
  show StableHlo.after hostOps2 (W6 m ρ c) (Proc.devRef .tc main_v58) = _
  after_results_simp
  rfl

/-- The first aggregation: of the input features. -/
theorem v42_eq (c : Dev nD) :
    W3 m ρ c (Proc.devRef .tc main_v42) = hostAgg (W3 m ρ c (Proc.devRef .tc main_v6)) (W3 m ρ c (Proc.devRef .tc main_v5))
      (W3 m ρ c (Proc.devRef .tc main_v29)) (W3 m ρ c (Proc.devRef .tc main_arg0)) := by
  unfold hostAgg
  simp only [W3, W2, W1]
  after_results_simp

/-- The second region's bias is the zeros. -/
theorem v44_eq (c : Dev nD) : W5 m ρ c (Proc.devRef .tc main_v44) = zero2 := by
  show StableHlo.after hostOps1 (W4 m ρ c) (Proc.devRef .tc main_v44) = _
  after_results_simp
  rfl

/-! ## The normalizers -/

/-- The degrees: a one added at each edge's destination node. -/
def degK (d : IVec S3300000 32) : FVec Ideal S100000 .f32 :=
  Host.scatterAdd (F := Ideal) scatter_S100000_S3300000x1_S3300000_n_0_0_1
    (broadcastInDim S100000 ![] bcast_S_S100000 (constant (F := Ideal) S_ .f32 0x00000000#32))
    (broadcastInDim S3300000x1 ![0] bcast_S3300000_S3300000x1_0 d)
    (broadcastInDim S3300000 ![] bcast_S_S3300000 (constant (F := Ideal) S_ .f32 0x3F800000#32))

/-- The inverse square roots of the positive degrees, zero elsewhere. -/
def dinvK (d : IVec S3300000 32) : FVec Ideal S100000 .f32 :=
  select (cmpf (F := Ideal) .ogt (degK d) (broadcastInDim S100000 ![] bcast_S_S100000 (constant (F := Ideal) S_ .f32 0x00000000#32)))
    (Host.rsqrt (F := Ideal) (degK d))
    (broadcastInDim S100000 ![] bcast_S_S100000 (constant (F := Ideal) S_ .f32 0x00000000#32))

/-- An edge's normalizer from the inverse square-root degrees: the product of the entries at its (wrapped) source
    and destination words. -/
def normOf (dinv : FVec Ideal S100000 .f32) (s d : IVec S3300000 32) : FVec Ideal S3300000 .f32 :=
  mulf (F := Ideal)
    (Host.gather gather_S100000_S3300000x1_S3300000_n_0_n_n_0_1_1 dinv
      (broadcastInDim S3300000x1 ![0] bcast_S3300000_S3300000x1_0 (wrapIdx s)))
    (Host.gather gather_S100000_S3300000x1_S3300000_n_0_n_n_0_1_1 dinv
      (broadcastInDim S3300000x1 ![0] bcast_S3300000_S3300000x1_0 (wrapIdx d)))

/-- The last stretch before the first region computes the normalizers from what the earlier stretches left. -/
theorem nuA (c : Dev nD) :
    W3 m ρ c (Proc.devRef .tc main_v29) = normOf (W2 m ρ c (Proc.devRef .tc main_v14)) (W2 m ρ c (Proc.devRef .tc main_v5)) (W2 m ρ c (Proc.devRef .tc main_v6)) := by
  show StableHlo.after hostOps0_2 (W2 m ρ c) (Proc.devRef .tc main_v29) = _
  generalize W2 m ρ c = Wg
  after_results_simp
  rfl

/-- The selection between the reciprocal square root and zero (the program's \`where\`). -/
theorem dinvB (c : Dev nD) :
    W2 m ρ c (Proc.devRef .tc main_v14) = select (W1 m ρ c (Proc.devRef .tc main_v12)) (W1 m ρ c (Proc.devRef .tc main_v13))
      (broadcastInDim S100000 ![] bcast_S_S100000 (W1 m ρ c (Proc.devRef .tc main_cst_2))) := by
  show StableHlo.after hostOps0_1 (W1 m ρ c) (Proc.devRef .tc main_v14) = _
  generalize W1 m ρ c = Wg
  after_results_simp
  rfl

theorem keep2_v5 (c : Dev nD) : W2 m ρ c (Proc.devRef .tc main_v5) = W1 m ρ c (Proc.devRef .tc main_v5) := by
  show StableHlo.after hostOps0_1 (W1 m ρ c) (Proc.devRef .tc main_v5) = W1 m ρ c (Proc.devRef .tc main_v5)
  generalize W1 m ρ c = Wg
  after_results_simp

theorem keep2_v6 (c : Dev nD) : W2 m ρ c (Proc.devRef .tc main_v6) = W1 m ρ c (Proc.devRef .tc main_v6) := by
  show StableHlo.after hostOps0_1 (W1 m ρ c) (Proc.devRef .tc main_v6) = W1 m ρ c (Proc.devRef .tc main_v6)
  generalize W1 m ρ c = Wg
  after_results_simp

theorem keep3_v5 (c : Dev nD) : W3 m ρ c (Proc.devRef .tc main_v5) = W2 m ρ c (Proc.devRef .tc main_v5) := by
  show StableHlo.after hostOps0_2 (W2 m ρ c) (Proc.devRef .tc main_v5) = W2 m ρ c (Proc.devRef .tc main_v5)
  generalize W2 m ρ c = Wg
  after_results_simp

theorem keep3_v6 (c : Dev nD) : W3 m ρ c (Proc.devRef .tc main_v6) = W2 m ρ c (Proc.devRef .tc main_v6) := by
  show StableHlo.after hostOps0_2 (W2 m ρ c) (Proc.devRef .tc main_v6) = W2 m ρ c (Proc.devRef .tc main_v6)
  generalize W2 m ρ c = Wg
  after_results_simp

/-- The mask of the positive degrees. -/
theorem v12C (c : Dev nD) : W1 m ρ c (Proc.devRef .tc main_v12)
    = cmpf (F := Ideal) .ogt (degK (W1 m ρ c (Proc.devRef .tc main_v6))) (broadcastInDim S100000 ![] bcast_S_S100000 (constant (F := Ideal) S_ .f32 0x00000000#32)) := by
  unfold degK
  simp only [W1]
  after_results_simp

/-- The reciprocal square roots of the degrees. -/
theorem v13C (c : Dev nD) : W1 m ρ c (Proc.devRef .tc main_v13) = Host.rsqrt (F := Ideal) (degK (W1 m ρ c (Proc.devRef .tc main_v6))) := by
  unfold degK
  simp only [W1]
  after_results_simp

/-- The zero the selection falls back to. -/
theorem cst2C (c : Dev nD) : W1 m ρ c (Proc.devRef .tc main_cst_2) = constant (F := Ideal) S_ .f32 0x00000000#32 := by
  simp only [W1]
  after_results_simp

/-- The normalizers as a function of the source and destination words. -/
def nuK (s d : IVec S3300000 32) : FVec Ideal S3300000 .f32 := normOf (dinvK d) s d

/-- The normalizers the program computes are `nuK` of the word arrays it computed. -/
theorem nuK_eq (c : Dev nD) :
    W3 m ρ c (Proc.devRef .tc main_v29) = nuK (W3 m ρ c (Proc.devRef .tc main_v5)) (W3 m ρ c (Proc.devRef .tc main_v6)) := by
  rw [nuA m ρ c, dinvB m ρ c, v12C m ρ c, v13C m ρ c, cst2C m ρ c, keep3_v5 m ρ c, keep3_v6 m ρ c, keep2_v5 m ρ c, keep2_v6 m ρ c]
  rfl

/-! ## What no later operation writes is kept -/

theorem w5_v5 (c : Dev nD) : W5 m ρ c (Proc.devRef .tc main_v5) = W4 m ρ c (Proc.devRef .tc main_v5) := by
  show StableHlo.after hostOps1 (W4 m ρ c) (Proc.devRef .tc main_v5) = _
  after_results_simp

theorem keep6_v5 (c : Dev nD) : W6 m ρ c (Proc.devRef .tc main_v5) = W3 m ρ c (Proc.devRef .tc main_v5) :=
  (W6_of_ne m ρ c main_v5 (by decide +kernel)).trans ((w5_v5 m ρ c).trans (W4_of_ne m ρ c main_v5 (by decide +kernel)))

theorem w5_v6 (c : Dev nD) : W5 m ρ c (Proc.devRef .tc main_v6) = W4 m ρ c (Proc.devRef .tc main_v6) := by
  show StableHlo.after hostOps1 (W4 m ρ c) (Proc.devRef .tc main_v6) = _
  after_results_simp

theorem keep6_v6 (c : Dev nD) : W6 m ρ c (Proc.devRef .tc main_v6) = W3 m ρ c (Proc.devRef .tc main_v6) :=
  (W6_of_ne m ρ c main_v6 (by decide +kernel)).trans ((w5_v6 m ρ c).trans (W4_of_ne m ρ c main_v6 (by decide +kernel)))

theorem w5_v29 (c : Dev nD) : W5 m ρ c (Proc.devRef .tc main_v29) = W4 m ρ c (Proc.devRef .tc main_v29) := by
  show StableHlo.after hostOps1 (W4 m ρ c) (Proc.devRef .tc main_v29) = _
  after_results_simp

theorem keep6_v29 (c : Dev nD) : W6 m ρ c (Proc.devRef .tc main_v29) = W3 m ρ c (Proc.devRef .tc main_v29) :=
  (W6_of_ne m ρ c main_v29 (by decide +kernel)).trans ((w5_v29 m ρ c).trans (W4_of_ne m ρ c main_v29 (by decide +kernel)))

/-- The first region's result reaches the second region as the first region left it. -/
theorem v43_5 (c : Dev nD) : W5 m ρ c (Proc.devRef .tc main_v43) = W4 m ρ c (Proc.devRef .tc main_v43) := by
  show StableHlo.after hostOps1 (W4 m ρ c) (Proc.devRef .tc main_v43) = _
  after_results_simp

theorem arg0_3 (c : Dev nD) : W3 m ρ c (Proc.devRef .tc main_arg0) = m ((c : Thread nD τ).loc main_arg0) := by
  simp only [W3, W2, W1]
  after_results_simp

theorem arg2_3 (c : Dev nD) : W3 m ρ c (Proc.devRef .tc main_arg2) = m ((c : Thread nD τ).loc main_arg2) := by
  simp only [W3, W2, W1]
  after_results_simp

theorem arg3_3 (c : Dev nD) : W3 m ρ c (Proc.devRef .tc main_arg3) = m ((c : Thread nD τ).loc main_arg3) := by
  simp only [W3, W2, W1]
  after_results_simp

theorem arg4_5 (c : Dev nD) : W5 m ρ c (Proc.devRef .tc main_arg4) = m ((c : Thread nD τ).loc main_arg4) := by
  show StableHlo.after hostOps1 (W4 m ρ c) (Proc.devRef .tc main_arg4) = _
  after_results_simp
  rw [W4_of_ne m ρ c main_arg4 (by decide +kernel)]
  show StableHlo.after hostOps0_2 (StableHlo.after hostOps0_1 (StableHlo.after hostOps0 (W0 m ρ c))) (Proc.devRef .tc main_arg4) = _
  after_results_simp

theorem arg5_7 (c : Dev nD) : W7 m ρ c (Proc.devRef .tc main_arg5) = m ((c : Thread nD τ).loc main_arg5) := by
  show StableHlo.after hostOps2 (W6 m ρ c) (Proc.devRef .tc main_arg5) = _
  after_results_simp
  rw [W6_of_ne m ρ c main_arg5 (by decide +kernel)]
  show StableHlo.after hostOps1 (W4 m ρ c) (Proc.devRef .tc main_arg5) = _
  after_results_simp
  rw [W4_of_ne m ρ c main_arg5 (by decide +kernel)]
  show StableHlo.after hostOps0_2 (StableHlo.after hostOps0_1 (StableHlo.after hostOps0 (W0 m ρ c))) (Proc.devRef .tc main_arg5) = _
  after_results_simp

/-! ## The result array -/

/-- The program's result as a function of the words, the normalizers and the five float arguments. -/
def outK (d s : IVec S3300000 32) (ν : FVec Ideal S3300000 .f32) (x0 : FVec Ideal S100000x2 .f32) (x2 : FVec Ideal S64x2 .f32)
    (x3 : FVec Ideal S64 .f32) (x4 : FVec Ideal S2x64 .f32) (x5 : FVec Ideal S2 .f32) : FVec Ideal S100000x2 .f32 :=
  addBias (N := 100000) (D := 2)
    (hostAgg d s ν (linBias (N := 100000) (Din := 64) (Dout := 2)
      (relu (N := 100000) (D := 64) (linBias (N := 100000) (Din := 2) (Dout := 64) (hostAgg d s ν x0) x2 x3)) x4 zero2)) x5

/-- The result array at the last boundary is `outK` of the launch contents. -/
theorem value (c : Dev nD) :
    W8 m ρ c (Proc.devRef .tc main_v59)
      = outK (W3 m ρ c (Proc.devRef .tc main_v6)) (W3 m ρ c (Proc.devRef .tc main_v5)) (W3 m ρ c (Proc.devRef .tc main_v29))
          (m ((c : Thread nD τ).loc main_arg0)) (m ((c : Thread nD τ).loc main_arg2)) (m ((c : Thread nD τ).loc main_arg3))
          (m ((c : Thread nD τ).loc main_arg4)) (m ((c : Thread nD τ).loc main_arg5)) := by
  have a8 : W8 m ρ c (Proc.devRef .tc main_v59) = (dat2 (V7 m ρ) c).arrAt 2 cfg2.N := W8_arr m ρ c 2
  have a5 : V7 m ρ c main_arg5 = m ((c : Thread nD τ).loc main_arg5) := arg5_7 m ρ c
  have a45 : W6 m ρ c (Proc.devRef .tc main_v45)
      = linBias (N := 100000) (Din := 64) (Dout := 2) (V5 m ρ c main_v43) (V5 m ρ c main_arg4) (V5 m ρ c main_v44) :=
    (W6_arr m ρ c 3).trans (Region1.final (V5 m ρ) c)
  have a58 : V7 m ρ c main_v58 = hostAgg (W3 m ρ c (Proc.devRef .tc main_v6)) (W3 m ρ c (Proc.devRef .tc main_v5))
      (W3 m ρ c (Proc.devRef .tc main_v29)) (W6 m ρ c (Proc.devRef .tc main_v45)) := by
    refine (v58_eq m ρ c).trans ?_
    rw [keep6_v6 m ρ c, keep6_v5 m ρ c, keep6_v29 m ρ c]
  have a43 : V5 m ρ c main_v43
      = relu (N := 100000) (D := 64) (linBias (N := 100000) (Din := 2) (Dout := 64) (V3 m ρ c main_v42) (V3 m ρ c main_arg2) (V3 m ρ c main_arg3)) :=
    (v43_5 m ρ c).trans ((W4_arr m ρ c 3).trans (Region0.final (V3 m ρ) c))
  have a4 : V5 m ρ c main_arg4 = m ((c : Thread nD τ).loc main_arg4) := arg4_5 m ρ c
  have a44 : V5 m ρ c main_v44 = zero2 := v44_eq m ρ c
  have a42 : V3 m ρ c main_v42 = hostAgg (W3 m ρ c (Proc.devRef .tc main_v6)) (W3 m ρ c (Proc.devRef .tc main_v5))
      (W3 m ρ c (Proc.devRef .tc main_v29)) (W3 m ρ c (Proc.devRef .tc main_arg0)) := v42_eq m ρ c
  have a0 : W3 m ρ c (Proc.devRef .tc main_arg0) = m ((c : Thread nD τ).loc main_arg0) := arg0_3 m ρ c
  have a2 : V3 m ρ c main_arg2 = m ((c : Thread nD τ).loc main_arg2) := arg2_3 m ρ c
  have a3 : V3 m ρ c main_arg3 = m ((c : Thread nD τ).loc main_arg3) := arg3_3 m ρ c
  rw [a8, Region2.final (V7 m ρ) c, a58, a5, a45, a43, a4, a44, a42, a0, a2, a3]
  rfl

end Cert.KernelIdeal.Host

end
-- ==== Proof.GcnAlgebra.lean ====
/-
  The algebra that joins the two orders of the first graph-convolution layer, on the extended reals.

  With every factor a real number the extended reals compute as the reals do, so a weighted sum over edges of a
  row-times-matrix product is the row-times-matrix product of the weighted sum over edges:
      Σ_{e selected} (Σ_k a e k · W k) · ν e  =  Σ_k (Σ_{e selected} a e k · ν e) · W k.
  (With an infinite factor this fails: distributivity does not hold at the infinities.) Also here: the reciprocal
  square root of a positive extended real is a real number, and of `+∞` it is `0`, so a degree's normalizer
  `if 0 < deg then rsqrt deg else 0` is always a real number.
-/
import Idealize.ShloMosaic.PureOps.Ideal

noncomputable section
open scoped BigOperators
namespace Cert.GcnAlgebra

open Idealize.ShloMosaic

/-- A finite sum of reals, read in the extended reals, is the sum of the terms read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the weighted sum over the selected edges of a contraction is the contraction of the weighted
    sums. -/
theorem exchange_real {ι κ : Type} [Fintype ι] [Fintype κ] (sel : ι → Prop) [DecidablePred sel]
    (a : ι → κ → ℝ) (ν : ι → ℝ) (W : κ → ℝ) :
    (∑ e, if sel e then (∑ k, a e k * W k) * ν e else 0)
      = ∑ k, (∑ e, if sel e then a e k * ν e else 0) * W k := by
  have hR : ∀ k, (∑ e, if sel e then a e k * ν e else 0) * W k = ∑ e, if sel e then a e k * W k * ν e else 0 := by
    intro k
    rw [Finset.sum_mul]
    refine Finset.sum_congr rfl fun e _ => ?_
    split_ifs
    · ring
    · ring
  simp only [hR]
  rw [Finset.sum_comm]
  refine Finset.sum_congr rfl fun e _ => ?_
  split_ifs
  · rw [Finset.sum_mul]
  · simp

/-- The same on the extended reals, every factor a real number, each side written with the leading zero an
    accumulation from zero carries. -/
theorem exchange {ι κ : Type} [Fintype ι] [Fintype κ] (sel : ι → Prop) [DecidablePred sel]
    (a : ι → κ → ℝ) (ν : ι → ℝ) (W : κ → ℝ) :
    (0 : EReal) + ∑ e, (if sel e then (∑ k, (a e k : EReal) * (W k : EReal)) * (ν e : EReal) else 0)
      = 0 + ∑ k, ((0 : EReal) + ∑ e, if sel e then (a e k : EReal) * (ν e : EReal) else 0) * (W k : EReal) := by
  have hL : ∀ e, (if sel e then (∑ k, (a e k : EReal) * (W k : EReal)) * (ν e : EReal) else (0 : EReal))
      = (((if sel e then (∑ k, a e k * W k) * ν e else 0 : ℝ)) : EReal) := by
    intro e
    split_ifs
    · rw [EReal.coe_mul, coe_sum]
      simp only [EReal.coe_mul]
    · exact EReal.coe_zero.symm
  have hI : ∀ k e, (if sel e then (a e k : EReal) * (ν e : EReal) else (0 : EReal))
      = (((if sel e then a e k * ν e else 0 : ℝ)) : EReal) := by
    intro k e
    split_ifs
    · exact (EReal.coe_mul _ _).symm
    · exact EReal.coe_zero.symm
  have hR : ∀ k, (∑ e, if sel e then (a e k : EReal) * (ν e : EReal) else (0 : EReal)) * (W k : EReal)
      = ((((∑ e, if sel e then a e k * ν e else 0) * W k : ℝ)) : EReal) := by
    intro k
    rw [EReal.coe_mul, coe_sum]
    simp only [hI]
  simp only [zero_add]
  simp only [hL, hR]
  rw [← coe_sum, ← coe_sum, exchange_real]

/-- The reciprocal square root of a positive extended real is a real number. -/
theorem rsqrt_pos_real (d : EReal) (h : 0 < d) : ∃ r : ℝ, Ideal.rsqrt d = (r : EReal) := by
  induction d using EReal.rec with
  | bot => exact absurd h (by simp)
  | top => exact ⟨0, by simp⟩
  | coe r =>
    have hr : 0 < r := by exact_mod_cast h
    refine ⟨(Real.sqrt r)⁻¹, ?_⟩
    rw [Ideal.rsqrt_coe, if_neg (not_lt.mpr hr.le), if_neg hr.ne']

end Cert.GcnAlgebra
end
-- ==== Proof.RefStages.lean ====
/-
  The idealized reference's result in the shared specification.

  The reference's two graph-convolution layers, read stage by stage: the destination words `d`, the wrapped source
  words `s` and the normalizers `ν` are computed twice by the same operations (once per layer) and are the same
  arrays; each layer's aggregation is `aggSum`; its dense product is `lin`; so
      result = addBias (agg (lin (relu (addBias (agg (lin x W1)) b1)) W2)) b2.
  The normalizer of an edge is a product of two entries of `dinv = if 0 < deg then rsqrt deg else 0`, which is a real
  number whatever the degree is (`rsqrt` of a positive extended real is real, of `+∞` is zero), so every normalizer
  is a real number.
-/
import proofs.«131247_j46445776339255_2_alg».proof.Proof.RefReadPatched
import proofs.«131247_j46445776339255_2_alg».proof.Proof.GcnAgg
import proofs.«131247_j46445776339255_2_alg».proof.Proof.GcnAlgebra

set_option maxRecDepth 16384

noncomputable section

namespace Cert.ReferenceIdeal.Stages

open Cert.ReferenceIdeal Cert.ReferenceIdeal.Gen Cert.ReferenceIdeal.ReadP Cert.GcnSpec
open Idealize.ShloMosaic Idealize.ShloMosaic.ValueIdx

variable (x0 : (⟨S100000x2, .f32⟩ : BufTy).Contents (Elt Ideal)) (x1 : (⟨S2x3200000, .i32⟩ : BufTy).Contents (Elt Ideal))
  (x2 : (⟨S64x2, .f32⟩ : BufTy).Contents (Elt Ideal)) (x3 : (⟨S64, .f32⟩ : BufTy).Contents (Elt Ideal))
  (x4 : (⟨S2x64, .f32⟩ : BufTy).Contents (Elt Ideal)) (x5 : (⟨S2, .f32⟩ : BufTy).Contents (Elt Ideal))

/-! ## The second layer recomputes the first layer's words and normalizers -/

theorem same_d : val_main_v51 (F := Ideal) x1 = val_main_v6 (F := Ideal) x1 := rfl
theorem same_s : val_main_v81 (F := Ideal) x1 = val_main_v36 (F := Ideal) x1 := rfl
theorem same_nu : val_main_v74 (F := Ideal) x1 = val_main_v29 (F := Ideal) x1 := rfl

/-! ## The two aggregations -/

/-- The first layer's aggregation (feature width 64) of the transformed features. -/
theorem v44_eq : val_main_v44 (F := Ideal) x0 x1 x2
    = aggSum (N := 100000) (D := 64) (M := 3300000) (selOf (val_main_v6 (F := Ideal) x1))
        (srcOf (by decide) (val_main_v36 (F := Ideal) x1)) (nuOf (val_main_v29 (F := Ideal) x1)) (val_main_v31 (F := Ideal) x0 x2) := by
  unfold val_main_v44 val_main_v41 val_main_v38 val_main_v40 val_main_v39 val_main_v43 val_main_v42 val_main_v37 val_main_cst_8
  exact hostAgg_eq (N := 100000) (D := 64) (M := 3300000) (by decide)
    scatter_S100000x64_S3300000x1_S3300000x64_1_0_0_1.wf gather_S100000x64_S3300000x1_S3300000x64_1_0_n_n_0_1_164.wf
    bcast_S_S100000x64 bcast_S3300000_S3300000x1_0 bcast_S3300000x1_S3300000x64_0_1 _ _ _ _

/-- The second layer's aggregation (feature width 2) of the second dense product. -/
theorem v89_eq : val_main_v89 (F := Ideal) x0 x1 x2 x3 x4
    = aggSum (N := 100000) (D := 2) (M := 3300000) (selOf (val_main_v6 (F := Ideal) x1))
        (srcOf (by decide) (val_main_v36 (F := Ideal) x1)) (nuOf (val_main_v29 (F := Ideal) x1)) (val_main_v76 (F := Ideal) x0 x1 x2 x3 x4) := by
  rw [← same_d x1, ← same_s x1, ← same_nu x1]
  unfold val_main_v89 val_main_v86 val_main_v83 val_main_v85 val_main_v84 val_main_v88 val_main_v87 val_main_v82 val_main_cst_19
  exact hostAgg_eq (N := 100000) (D := 2) (M := 3300000) (by decide)
    scatter_S100000x2_S3300000x1_S3300000x2_1_0_0_1.wf gather_S100000x2_S3300000x1_S3300000x2_1_0_n_n_0_1_12.wf
    bcast_S_S100000x2 bcast_S3300000_S3300000x1_0 bcast_S3300000x1_S3300000x2_0_1 _ _ _ _

/-! ## The dense products, the bias and the rectifier -/

/-- The first dense product: rows of the features against rows of the first weights. -/
theorem v31_eq : val_main_v31 (F := Ideal) x0 x2 = lin (N := 100000) (Din := 2) (Dout := 64) x0 x2 := by
  funext i
  obtain ⟨n, j, rfl⟩ : ∃ (n : Fin 100000) (j : Fin 64), i = ix2 n j := ⟨i 0, i 1, eq_ix2 i⟩
  rw [val_main_v31_apply, lin_apply]
  refine Finset.sum_congr rfl fun k _ => ?_
  rw [val_main_v30_apply]
  refine congrArg₂ (· * ·) (congrArg x0 ?_) (congrArg x2 ?_)
  · funext a; apply Fin.ext
    match a with
    | ⟨0, _⟩ => rfl
    | ⟨1, _⟩ => rfl
  · funext a; apply Fin.ext
    match a with
    | ⟨0, _⟩ => rfl
    | ⟨1, _⟩ => rfl

/-- The bias and the rectifier of the first layer. -/
theorem v48_eq : val_main_v48 (F := Ideal) x0 x1 x2 x3
    = relu (N := 100000) (D := 64) (addBias (N := 100000) (D := 64) (val_main_v44 (F := Ideal) x0 x1 x2) x3) := by
  funext i
  obtain ⟨n, j, rfl⟩ : ∃ (n : Fin 100000) (j : Fin 64), i = ix2 n j := ⟨i 0, i 1, eq_ix2 i⟩
  rw [val_main_v48_apply, val_main_v47_apply, val_main_v46_apply, val_main_v45_apply, val_main_call1_v0_apply,
    relu_apply, addBias_apply]
  refine congrArg₂ max (congrArg₂ (· + ·) rfl (congrArg x3 ?_)) Ideal.ofBits_zero_f32
  funext a; apply Fin.ext
  match a with
  | ⟨0, _⟩ => rfl

/-- The second dense product: rows of the hidden features against rows of the second weights. -/
theorem v76_eq : val_main_v76 (F := Ideal) x0 x1 x2 x3 x4
    = lin (N := 100000) (Din := 64) (Dout := 2) (val_main_v48 (F := Ideal) x0 x1 x2 x3) x4 := by
  funext i
  obtain ⟨n, j, rfl⟩ : ∃ (n : Fin 100000) (j : Fin 2), i = ix2 n j := ⟨i 0, i 1, eq_ix2 i⟩
  rw [val_main_v76_apply, lin_apply]
  refine Finset.sum_congr rfl fun k _ => ?_
  rw [val_main_v75_apply]
  refine congrArg₂ (· * ·) (congrArg (val_main_v48 (F := Ideal) x0 x1 x2 x3) ?_) (congrArg x4 ?_)
  · funext a; apply Fin.ext
    match a with
    | ⟨0, _⟩ => rfl
    | ⟨1, _⟩ => rfl
  · funext a; apply Fin.ext
    match a with
    | ⟨0, _⟩ => rfl
    | ⟨1, _⟩ => rfl

/-- The output bias. -/
theorem v92_eq : val_main_v92 (F := Ideal) x0 x1 x2 x3 x4 x5
    = addBias (N := 100000) (D := 2) (val_main_v89 (F := Ideal) x0 x1 x2 x3 x4) x5 := by
  funext i
  obtain ⟨n, j, rfl⟩ : ∃ (n : Fin 100000) (j : Fin 2), i = ix2 n j := ⟨i 0, i 1, eq_ix2 i⟩
  rw [val_main_v92_apply, val_main_v91_apply, val_main_v90_apply, addBias_apply]
  refine congrArg₂ (· + ·) rfl (congrArg x5 ?_)
  funext a; apply Fin.ext
  match a with
  | ⟨0, _⟩ => rfl

/-! ## Every normalizer is a real number -/

/-- `if 0 < t then rsqrt t else 0` is a real number for every extended real `t`. -/
theorem dinv_real (t : EReal) :
    ∃ r : ℝ, Scalar.select (Ideal.cmp .ogt t (Ideal.ofBits .f32 0x00000000#32)) (Ideal.rsqrt t) (Ideal.ofBits .f32 0x00000000#32) = (r : EReal) := by
  rw [Ideal.ofBits_zero_f32]
  by_cases h : (0 : EReal) < t
  · have hc : Ideal.cmp .ogt t 0 = 1#1 := by unfold Ideal.cmp; simp [h]
    rw [hc, select_one]
    exact Cert.GcnAlgebra.rsqrt_pos_real t h
  · have hc : Ideal.cmp .ogt t 0 = 0#1 := by unfold Ideal.cmp; simp [h]
    rw [hc, select_zero]
    exact ⟨0, rfl⟩

/-- An entry of the inverse square-root degrees is a real number. -/
theorem v14_real (i : S100000.Idx) : ∃ r : ℝ, val_main_v14 (F := Ideal) x1 i = (r : EReal) := by
  rw [val_main_v14_apply, val_main_v12_apply, val_main_v13_apply, val_main_v11_apply, val_main_call0_v1_apply,
    val_main_cst_1_apply, val_main_call0_v0_apply, val_main_cst_2_apply]
  generalize val_main_v10 (F := Ideal) x1 i = t
  exact dinv_real t

/-- Every edge's normalizer is a real number. -/
theorem nu_real (e : Fin 3300000) : ∃ r : ℝ, nuOf (val_main_v29 (F := Ideal) x1) e = (r : EReal) := by
  unfold nuOf
  rw [val_main_v29_apply]
  obtain ⟨a, ha⟩ := v14_real x1 (gather_S100000_S3300000x1_S3300000_n_0_n_n_0_1_1.operandIdx (ix1 e) (val_main_v20 (F := Ideal) x1))
  obtain ⟨b, hb⟩ := v14_real x1 (gather_S100000_S3300000x1_S3300000_n_0_n_n_0_1_1.operandIdx (ix1 e) (val_main_v27 (F := Ideal) x1))
  refine ⟨a * b, ?_⟩
  show val_main_v21 (F := Ideal) x1 (ix1 e) * val_main_v28 (F := Ideal) x1 (ix1 e) = _
  have h21 : val_main_v21 (F := Ideal) x1 (ix1 e) = (a : EReal) := ha
  have h28 : val_main_v28 (F := Ideal) x1 (ix1 e) = (b : EReal) := hb
  rw [h21, h28, EReal.coe_mul]

end Cert.ReferenceIdeal.Stages

end
-- ==== Proof.GcnLayer.lean ====
/-
  The first layer's two orders agree: aggregating the transformed rows is transforming the aggregated rows.

  With the node features `X`, the weights `W` and the edge normalizers `ν` all real numbers,
      aggSum (lin X W) = lin (aggSum X) W :
  at `(n, j)` the left side is `0 + Σ_{e → n} (Σ_k X(g e, k) · W(j,k)) · ν e` and the right side
  `Σ_k (0 + Σ_{e → n} X(g e, k) · ν e) · W(j,k)`; the exchange of the two sums and the distributive law hold because
  every factor is finite.
-/
import proofs.«131247_j46445776339255_2_alg».proof.Proof.GcnSpec
import proofs.«131247_j46445776339255_2_alg».proof.Proof.GcnAlgebra

noncomputable section
open scoped BigOperators
namespace Cert.GcnSpec

open Idealize.ShloMosaic Idealize.ShloMosaic.ValueIdx

variable {N Din Dout M : ℕ}

theorem agg_lin_comm (sel : Fin N → Fin M → Prop) [∀ n e, Decidable (sel n e)] (g : Fin M → Fin N) (ν : Fin M → EReal)
    (X : (⟨2, ![N, Din]⟩ : Shape).Idx → EReal) (W : (⟨2, ![Dout, Din]⟩ : Shape).Idx → EReal)
    (hX : ∀ i, ∃ r : ℝ, X i = (r : EReal)) (hW : ∀ i, ∃ r : ℝ, W i = (r : EReal)) (hν : ∀ e, ∃ r : ℝ, ν e = (r : EReal)) :
    aggSum sel g ν (lin X W) = lin (aggSum sel g ν X) W := by
  choose x' hx' using hX
  choose w' hw' using hW
  choose ν' hν' using hν
  funext i
  obtain ⟨n, j, rfl⟩ : ∃ (n : Fin N) (j : Fin Dout), i = ix2 n j := ⟨i 0, i 1, eq_ix2 i⟩
  rw [aggSum_apply, lin_apply]
  simp only [lin_apply, aggSum_apply, hx', hw', hν']
  have h := Cert.GcnAlgebra.exchange (fun e : Fin M => sel n e) (fun e k => x' (ix2 (g e) k)) ν' (fun k : Fin Din => w' (ix2 j k))
  rw [h, zero_add]

end Cert.GcnSpec
end
-- ==== Proof.Finite.lean ====
/-
  What the precondition gives: the node features and the first weights hold real numbers.

  The precondition is the conjunction, over the five float arguments, of `all (|a| < +∞)`. Its value being one, each
  conjunct is one, so every entry `t` of an argument has `max t (−t) < +∞`, which excludes both infinities: `t` is a
  real number. Only the node features and the first layer's weights are needed by the proof.
-/
import proofs.«131247_j46445776339255_2_alg».proof.Pre_finite_inputs
import proofs.«131247_j46445776339255_2_alg».proof.Proof.Gen.Pre_finite_inputs
import proofs.«131247_j46445776339255_2_alg».proof.Proof.LibHostRead
import Idealize.ShloMosaic.Lib.ReduceAll
import Idealize.ShloMosaic.Lib.ValueIdx
import Idealize.ShloMosaic.PureOps.Ideal.Laws

noncomputable section

namespace Cert.Finite

open Cert.Pre_finite_inputs Cert.Pre_finite_inputs.Gen
open Idealize.ShloMosaic Idealize.ShloMosaic.ValueIdx Cert.LibHostRead

instance : Subsingleton S_.Idx := ⟨fun a b => funext fun d => d.elim0⟩

/-- An extended real whose absolute value is below `+∞` is a real number. -/
theorem real_of_mask (t : EReal)
    (h : Ideal.cmp .olt (max t (-t)) (Ideal.ofBits .f32 0x7F800000#32) = 1#1) : ∃ r : ℝ, t = (r : EReal) := by
  have htop : Ideal.ofBits .f32 0x7F800000#32 = ⊤ := by simp [Ideal.ofBits, Ideal.ieee]
  rw [htop] at h
  unfold Ideal.cmp at h
  induction t using EReal.rec with
  | bot => simp at h
  | top => simp at h
  | coe r => exact ⟨r, rfl⟩

/-- One entry of an argument's finiteness mask. -/
theorem mask_apply {s : Shape} (hb : S_.BroadcastsInDim s (![] : Fin 0 → Fin s.rank)) (a : FVec Ideal s .f32) (i : s.Idx) :
    cmpf (F := Ideal) .olt (Host.absf a) (broadcastInDim s ![] hb (constant (F := Ideal) S_ .f32 0x7F800000#32)) i
      = Ideal.cmp .olt (max (a i) (-(a i))) (Ideal.ofBits .f32 0x7F800000#32) := by
  show Ideal.cmp .olt (max (a i) (-(a i))) (broadcastInDim s ![] hb (constant (F := Ideal) S_ .f32 0x7F800000#32) i) = _
  rw [bid_scalar_apply]
  rfl

/-- Under the precondition every node feature and every first-layer weight is a real number. -/
theorem real_inputs (a0 : FVec Ideal S100000x2 .f32) (a1 : IVec S2x3200000 32) (a2 : FVec Ideal S64x2 .f32)
    (a3 : FVec Ideal S64 .f32) (a4 : FVec Ideal S2x64 .f32) (a5 : FVec Ideal S2 .f32)
    (hpre : fn (F := Ideal) a0 a1 a2 a3 a4 a5 = fun _ => 1#1) :
    (∀ i, ∃ r : ℝ, a0 i = (r : EReal)) ∧ (∀ i, ∃ r : ℝ, a2 i = (r : EReal)) := by
  have h := congrFun hpre ix0
  dsimp only [fn, fn_part1] at h
  obtain ⟨h18, -⟩ := IntOp.andi_eq_one.1 h
  obtain ⟨h13, -⟩ := IntOp.andi_eq_one.1 h18
  obtain ⟨h8, -⟩ := IntOp.andi_eq_one.1 h13
  obtain ⟨h3, h7⟩ := IntOp.andi_eq_one.1 h8
  constructor
  · intro i
    have hi := Host.reduce_andi_all _ _ _ _ ix0 h3 i
    rw [mask_apply] at hi
    exact real_of_mask _ hi
  · intro i
    have hi := Host.reduce_andi_all _ _ _ _ ix0 h7 i
    rw [mask_apply] at hi
    exact real_of_mask _ hi

end Cert.Finite

end
-- ==== Proof.Bridge.lean ====
/-
  The idealized kernel's result array is the idealized reference's result, entry by entry.

  Both programs compute the destination words, the wrapped source words and the normalizers by the same operations of
  the edge list, so those arrays are the same; with `agg` the neighbourhood sum they define,
      kernel    = addBias (agg (linBias (relu (linBias (agg x) W1 b1)) W2 0)) b2
      reference = addBias (agg (lin (relu (addBias (agg (lin x W1)) b1)) W2)) b2 .
  A zero bias drops out, a dense layer with a bias is the layer followed by the bias, and — the one step that needs
  the precondition — `agg (lin x W1) = lin (agg x) W1` because the features, the weights and the normalizers are real
  numbers.
-/
import proofs.«131247_j46445776339255_2_alg».proof.Proof.KHost
import proofs.«131247_j46445776339255_2_alg».proof.Proof.RefStages
import proofs.«131247_j46445776339255_2_alg».proof.Proof.GcnLayer
import proofs.«131247_j46445776339255_2_alg».proof.Proof.Finite

set_option maxRecDepth 16384

noncomputable section

namespace Cert.Bridge

open Cert.GcnSpec Cert.ReferenceIdeal.ReadP
open Idealize.ShloMosaic Idealize.ShloMosaic.TcCoe Idealize.SL.Sem Idealize.ShloMosaic.StableHlo Idealize.ShloMosaic.ValueIdx

section Arrays

variable (x0 : (⟨Cert.ReferenceIdeal.S100000x2, .f32⟩ : BufTy).Contents (Elt Ideal))
  (x1 : (⟨Cert.ReferenceIdeal.S2x3200000, .i32⟩ : BufTy).Contents (Elt Ideal))
  (x2 : (⟨Cert.ReferenceIdeal.S64x2, .f32⟩ : BufTy).Contents (Elt Ideal)) (x3 : (⟨Cert.ReferenceIdeal.S64, .f32⟩ : BufTy).Contents (Elt Ideal))
  (x4 : (⟨Cert.ReferenceIdeal.S2x64, .f32⟩ : BufTy).Contents (Elt Ideal)) (x5 : (⟨Cert.ReferenceIdeal.S2, .f32⟩ : BufTy).Contents (Elt Ideal))

/-- The kernel wraps the source words as the reference does. -/
theorem wrap_eq : Cert.KernelIdeal.Host.wrapIdx (val_main_v5 (F := Ideal) x1) = val_main_v36 (F := Ideal) x1 := rfl

/-- The second region's bias is zero everywhere. -/
theorem zero2_apply (j : Cert.KernelIdeal.S2.Idx) : Cert.KernelIdeal.Host.zero2 j = 0 := by
  unfold Cert.KernelIdeal.Host.zero2
  rw [Cert.LibHostRead.bid_scalar_apply]
  exact Ideal.ofBits_zero_f32

/-- The two programs' results are one function of the arguments, where the features and the first weights are real. -/
theorem result_eq (hx0 : ∀ i, ∃ r : ℝ, x0 i = (r : EReal)) (hx2 : ∀ i, ∃ r : ℝ, x2 i = (r : EReal)) :
    Cert.KernelIdeal.Host.outK (val_main_v6 (F := Ideal) x1) (val_main_v5 (F := Ideal) x1) (val_main_v29 (F := Ideal) x1) x0 x2 x3 x4 x5
      = val_main_v92 (F := Ideal) x0 x1 x2 x3 x4 x5 := by
  unfold Cert.KernelIdeal.Host.outK
  rw [Cert.KernelIdeal.Host.hostAgg_spec, Cert.KernelIdeal.Host.hostAgg_spec, wrap_eq]
  rw [Cert.ReferenceIdeal.Stages.v92_eq, Cert.ReferenceIdeal.Stages.v89_eq, Cert.ReferenceIdeal.Stages.v76_eq,
    Cert.ReferenceIdeal.Stages.v48_eq, Cert.ReferenceIdeal.Stages.v44_eq, Cert.ReferenceIdeal.Stages.v31_eq]
  rw [agg_lin_comm _ _ _ x0 x2 hx0 hx2 (Cert.ReferenceIdeal.Stages.nu_real x1)]
  rw [linBias_zero _ _ Cert.KernelIdeal.Host.zero2 zero2_apply]
  rfl

end Arrays

section Run

open Cert.KernelIdeal Cert.KernelIdeal.Gen

variable (m : (ℓ : Loc nD τ sig) → Buf (Elt Ideal) ℓ) (ρ : Dev nD → PrngReg)

/-- The kernel's destination words are the reference's stage of the edge list. -/
theorem d_eq (c : Dev nD) :
    W3 m ρ c (Proc.devRef .tc main_v6) = val_main_v6 (F := Ideal) (m ((c : Thread nD τ).loc main_arg1)) := by
  simp only [W3, W2, W1]
  after_results_simp
  rfl

/-- The kernel's source words are the reference's stage of the edge list. -/
theorem s_eq (c : Dev nD) :
    W3 m ρ c (Proc.devRef .tc main_v5) = val_main_v5 (F := Ideal) (m ((c : Thread nD τ).loc main_arg1)) := by
  simp only [W3, W2, W1]
  after_results_simp
  rfl

/-- The kernel's normalizers, as a function of the words, are the reference's stage. -/
theorem nuK_ref (x1 : (⟨Cert.ReferenceIdeal.S2x3200000, .i32⟩ : BufTy).Contents (Elt Ideal)) :
    Cert.KernelIdeal.Host.nuK (val_main_v5 (F := Ideal) x1) (val_main_v6 (F := Ideal) x1) = val_main_v29 (F := Ideal) x1 := rfl

/-- The kernel's normalizers are the reference's stage of the edge list. -/
theorem nu_eq (c : Dev nD) :
    W3 m ρ c (Proc.devRef .tc main_v29) = val_main_v29 (F := Ideal) (m ((c : Thread nD τ).loc main_arg1)) := by
  rw [Cert.KernelIdeal.Host.nuK_eq m ρ c, s_eq m ρ c, d_eq m ρ c]
  exact nuK_ref _

/-- Under the precondition the kernel's result array, at the end of its run, is the reference's result of the same
    arguments. -/
theorem kernel_eq_ref (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) :
    W8 m ρ c (Proc.devRef .tc main_v59)
      = val_main_v92 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  obtain ⟨hx0, hx2⟩ := Cert.Finite.real_inputs _ _ _ _ _ _ hpre
  refine (Cert.KernelIdeal.Host.value m ρ c).trans ?_
  rw [d_eq m ρ c, s_eq m ρ c, nu_eq m ρ c]
  exact result_eq _ _ _ _ _ _ hx0 hx2

end Run

end Cert.Bridge

end
-- ==== Proof.lean ====
/-
  The certificate of a two-layer graph convolution computed in the order "aggregate, then transform" against its
  reference in the order "transform, then aggregate".

  The kernel program aggregates the two-wide input features over each node's neighbourhood (normalized by the inverse
  square roots of the degrees) on the host, applies the first dense layer with bias and rectifier in blocks of 2000 rows,
  applies the second dense layer in blocks, aggregates the two-wide result on the host, and adds the output bias in
  blocks. The reference applies each dense layer first and aggregates afterwards. On the extended reals the two agree
  entry by entry whenever the inputs are finite: the neighbourhood sum commutes with a dense layer because the
  features, the weights and the normalizers are all real numbers (the one place the precondition is used); everything
  else — changes of float format, the order and blocking of the sums, a bias of zeros — is an identity there.

  The three frames are the programs' runs with the result dropped; the idealization rewrote nothing, so the
  sanctioned-idealization claim is trivial; the value claim joins the kernel's run (its result array read back through
  the three regions and the host stretches) with the reference's run (its stages read one at a time).
-/
import proofs.«131247_j46445776339255_2_alg».proof.Defs
import proofs.«131247_j46445776339255_2_alg».proof.Proof.Gen.Kernel
import proofs.«131247_j46445776339255_2_alg».proof.Proof.Gen.Kernel.Skeleton
import proofs.«131247_j46445776339255_2_alg».proof.Proof.Gen.Kernel.Launch
import proofs.«131247_j46445776339255_2_alg».proof.Proof.Gen.Kernel.Points
import proofs.«131247_j46445776339255_2_alg».proof.Proof.Gen.Kernel.Frame
import proofs.«131247_j46445776339255_2_alg».proof.Proof.Gen.KernelIdeal
import proofs.«131247_j46445776339255_2_alg».proof.Proof.Gen.KernelIdeal.Skeleton
import proofs.«131247_j46445776339255_2_alg».proof.Proof.Gen.KernelIdeal.Launch
import proofs.«131247_j46445776339255_2_alg».proof.Proof.Gen.KernelIdeal.Points
import proofs.«131247_j46445776339255_2_alg».proof.Proof.Gen.KernelIdeal.Frame
import proofs.«131247_j46445776339255_2_alg».proof.Proof.Gen.ReferenceIdeal
import proofs.«131247_j46445776339255_2_alg».proof.Proof.Gen.Pre_finite_inputs
import proofs.«131247_j46445776339255_2_alg».proof.Proof.KRun
import proofs.«131247_j46445776339255_2_alg».proof.Proof.RefRunPatched
import proofs.«131247_j46445776339255_2_alg».proof.Proof.RefReadPatched
import proofs.«131247_j46445776339255_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the same result array: the reference's
    result of the kernel's arguments. -/
theorem algebraic : Cert.algebraic_KernelIdeal_ReferenceIdeal := by
  intro m ρ m' ρ' hpre hagree
  refine ⟨fun c => Cert.ReferenceIdeal.ReadP.val_main_v92 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Bridge.kernel_eq_ref m ρ c (hpre c)), (h c).2⟩)
      (Cert.KernelIdeal.Named.run_named m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v92_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
